-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1x64 : Shape := ⟨2, ![1, 64]⟩
abbrev S1600000x64 : Shape := ⟨2, ![1600000, 64]⟩

abbrev nBuf : Space → Nat
  | .hbm => 58
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S5000x64_S5000x64 : S5000x64.ShapeCasts S5000x64
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S100000x64, .f32⟩
  | 7 => ⟨S1x64, .f32⟩
  | 8 => ⟨S100000x64, .f32⟩
  | 9 => ⟨S100000x64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S1x1600000, .i32⟩
  | 74 => ⟨S1600000, .i32⟩
  | 75 => ⟨S1x1600000, .i32⟩
  | 76 => ⟨S1600000, .i32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The two-layer graph convolution, index by index, over the extended reals.

  Nodes 0 … 99999, edges 0 … 1599999; an edge e has a source word (row 0 of the edge array) and a destination word
  (row 1). A lookup reads a word as a row number by adding 100000 to a negative word and clamping the signed result
  into [0, 99999] (`look`). A segment sum at node n runs over the edges whose destination word reads exactly n.
  The degree of n is the number of those edges; its scale s(n) is 1/sqrt(max(deg, 1)) when deg > 0 and 0 otherwise:
  always a nonnegative real.

  The symmetric normalisation: the reference weights edge e by s(src e) · s(dst e) and sums; since s(dst e) = s(n) on
  every edge summed at n, and s(n) is a nonnegative real, that factor comes out of the sum — multiplication by a
  nonnegative real distributes over sums of arbitrary extended reals — which is the per-node form
  s(n) · Σ_e s(src e) · H(src e).
-/
import Idealize.ShloMosaic.PureOps.Ideal
import Idealize.ShloMosaic.PureOps.Ideal.Laws
import Idealize.ShloMosaic.Lib.ValueIdx
import Idealize.ShloMosaic.Lib.Affine
import Mathlib.Data.EReal.Inv
import Mathlib.Data.EReal.Operations

noncomputable section

open scoped BigOperators

namespace Cert.Gcn

open Idealize.ShloMosaic Idealize.ShloMosaic.ValueIdx

/-- The float words 0.0 and 1.0 at the exact reading. -/
abbrev Z : EReal := Ideal.ofBits .f32 0x00000000#32
abbrev ONE : EReal := Ideal.ofBits .f32 0x3F800000#32

abbrev EdgeIx := (⟨2, ![2, 1600000]⟩ : Shape).Idx → BitVec 32
abbrev Mat := (⟨2, ![100000, 64]⟩ : Shape).Idx → EReal
abbrev Col := (⟨2, ![100000, 1]⟩ : Shape).Idx → EReal
abbrev Wt := (⟨2, ![64, 64]⟩ : Shape).Idx → EReal
abbrev Bias := (⟨1, ![64]⟩ : Shape).Idx → EReal

/-- Edge e's source word and destination word. -/
def rowOf (x1 : EdgeIx) (e : Fin 1600000) : BitVec 32 := x1 (ix2 0 e)
def colOf (x1 : EdgeIx) (e : Fin 1600000) : BitVec 32 := x1 (ix2 1 e)

/-- A word read as a row number by a lookup: a negative word is shifted by 100000, the signed result clamped
    into [0, 99999]. -/
def look (v : BitVec 32) : Fin 100000 :=
  ⟨min (Scalar.select (IntOp.cmpi .slt v 0#32) (IntOp.addi v 100000#32) v).toInt.toNat 99999, by omega⟩

/-- The edges summed at node n: those whose destination word reads n. -/
def into (x1 : EdgeIx) (n : Fin 100000) : Finset (Fin 1600000) :=
  Finset.univ.filter (fun e : Fin 1600000 => (colOf x1 e).toInt = (n.val : ℤ))

/-- The degree of node n. -/
def degOf (x1 : EdgeIx) (n : Fin 100000) : EReal := Z + ∑ e ∈ into x1 n, ONE

/-- The scale of a degree d: 1/sqrt(max(d, 1)) when d > 0, else 0. -/
def disOf (d : EReal) : EReal := Scalar.select (Ideal.cmp .ogt d Z) (Ideal.rsqrt (max d ONE)) Z

/-- The scale of node n. -/
def sOf (x1 : EdgeIx) (n : Fin 100000) : EReal := disOf (degOf x1 n)

/-- One entry of X · W + b. -/
def linAt (X : Mat) (W : Wt) (b : Bias) (p : Fin 100000) (q : Fin 64) : EReal :=
  (∑ j : Fin 64, X (ix2 p j) * W (ix2 j q)) + b (ix1 q)

def lin (X : Mat) (W : Wt) (b : Bias) : Mat := fun i => linAt X W b (i 0) (i 1)

/-- The plain segment sum of the looked-up source rows. -/
def aggAt (x1 : EdgeIx) (H : Mat) (n : Fin 100000) (k : Fin 64) : EReal :=
  Z + ∑ e ∈ into x1 n, H (ix2 (look (rowOf x1 e)) k)

def agg (x1 : EdgeIx) (H : Mat) : Mat := fun i => aggAt x1 H (i 0) (i 1)

/-- The normalised segment sum: edge e weighted by s(src e) · s(dst e). -/
def convAt (x1 : EdgeIx) (H : Mat) (n : Fin 100000) (k : Fin 64) : EReal :=
  Z + ∑ e ∈ into x1 n, (sOf x1 (look (rowOf x1 e)) * sOf x1 (look (colOf x1 e))) * H (ix2 (look (rowOf x1 e)) k)

def conv (x1 : EdgeIx) (H : Mat) : Mat := fun i => convAt x1 H (i 0) (i 1)

def relu (H : Mat) : Mat := fun i => max (H i) Z

/-- Every row p multiplied (on the right) by the scale of node p. -/
def scaleRows (x1 : EdgeIx) (H : Mat) : Mat := fun i => H i * sOf x1 (i 0)

/-- The scales as a one-column array. -/
def sCol (x1 : EdgeIx) : Col := fun i => sOf x1 (i 0)

/-- What the first kernel region computes from its four arrays: (X · W + b), each row times its column entry. -/
def regionLin (X : Mat) (W : Wt) (b : Bias) (s : Col) : Mat :=
  fun i => linAt X W b (i 0) (i 1) * s (ix2 (i 0) 0)

/-- What the second kernel region computes: rows scaled, clamped below at 0, then as the first. -/
def regionReluLin (X : Mat) (W : Wt) (b : Bias) (s : Col) : Mat :=
  fun i => linAt (fun j => max (X j * s (ix2 (j 0) 0)) Z) W b (i 0) (i 1) * s (ix2 (i 0) 0)

/-- The reference's result. -/
def refOut (x0 : Mat) (x1 : EdgeIx) (x2 : Wt) (x3 : Bias) (x4 : Wt) (x5 : Bias) : Mat :=
  conv x1 (lin (relu (conv x1 (lin x0 x2 x3))) x4 x5)

/-- The kernel program's result. -/
def kerOut (x0 : Mat) (x1 : EdgeIx) (x2 : Wt) (x3 : Bias) (x4 : Wt) (x5 : Bias) : Mat :=
  fun i => sOf x1 (i 0) *
    agg x1 (regionReluLin (agg x1 (regionLin x0 x2 x3 (sCol x1))) x4 x5 (sCol x1)) i

/-! ## The scale is a nonnegative real -/

theorem one_eq : ONE = 1 := by
  show Ideal.ofBits .f32 0x3F800000#32 = 1
  simp [Ideal.ofBits, Ideal.ieee, -EReal.coe_mul]; norm_num

theorem zero_eq : Z = 0 := Ideal.ofBits_zero_f32

/-- The degree is a natural number. -/
theorem degOf_eq (x1 : EdgeIx) (n : Fin 100000) : degOf x1 n = (((into x1 n).card : ℝ) : EReal) := by
  unfold degOf
  rw [zero_eq, one_eq, zero_add, Finset.sum_const, show (1 : EReal) = ((1 : ℝ) : EReal) from rfl, ← EReal.coe_nsmul,
    nsmul_eq_mul, mul_one]

/-- The scale of a natural-number degree is a nonnegative real. -/
theorem disOf_nat (c : ℕ) : ∃ r : ℝ, 0 ≤ r ∧ disOf ((c : ℝ) : EReal) = (r : EReal) := by
  unfold disOf Scalar.select
  split
  · refine ⟨(Real.sqrt (max (c : ℝ) 1))⁻¹, by positivity, ?_⟩
    rw [one_eq, show (1 : EReal) = ((1 : ℝ) : EReal) from rfl,
      ← (EReal.coe_strictMono.monotone.map_max (a := (c : ℝ)) (b := (1 : ℝ))), Ideal.rsqrt_coe]
    have h1 : (0 : ℝ) < max (c : ℝ) 1 := lt_of_lt_of_le one_pos (le_max_right _ _)
    rw [if_neg (not_lt.mpr h1.le), if_neg h1.ne']
  · exact ⟨0, le_refl _, zero_eq⟩

theorem sOf_real (x1 : EdgeIx) (n : Fin 100000) : ∃ r : ℝ, 0 ≤ r ∧ sOf x1 n = (r : EReal) := by
  unfold sOf; rw [degOf_eq]; exact disOf_nat _

/-! ## The factor of the destination comes out of the segment sum -/

/-- A destination word that reads n is looked up as n. -/
theorem look_of_toInt (v : BitVec 32) (n : Fin 100000) (h : v.toInt = (n.val : ℤ)) : look v = n := by
  unfold look
  refine Fin.ext ?_
  show min (Scalar.select (IntOp.cmpi .slt v 0#32) (IntOp.addi v 100000#32) v).toInt.toNat 99999 = n.val
  have hs : Scalar.select (IntOp.cmpi .slt v 0#32) (IntOp.addi v 100000#32) v = v := by
    unfold Scalar.select
    rw [if_neg]
    intro hc
    have := IntOp.cmpi_slt.1 hc
    rw [show (0#32 : BitVec 32).toInt = 0 from by decide] at this
    omega
  rw [hs, h]
  have := n.isLt
  omega

/-- Multiplication by a nonnegative real on the right distributes over a finite sum of extended reals. -/
theorem sum_mul_real {ι : Type*} (s : Finset ι) (f : ι → EReal) (r : ℝ) (hr : 0 ≤ r) :
    (∑ e ∈ s, f e) * (r : EReal) = ∑ e ∈ s, f e * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- THE LAW: the normalised segment sum is the plain segment sum of the source-scaled rows, times the scale of
    the node. No finiteness of H is used. -/
theorem convAt_eq (x1 : EdgeIx) (H : Mat) (n : Fin 100000) (k : Fin 64) :
    convAt x1 H n k = aggAt x1 (scaleRows x1 H) n k * sOf x1 n := by
  obtain ⟨r, hr, hs⟩ := sOf_real x1 n
  unfold convAt aggAt
  rw [zero_eq, zero_add, zero_add, hs, sum_mul_real _ _ r hr]
  refine Finset.sum_congr rfl fun e he => ?_
  have hc : look (colOf x1 e) = n := look_of_toInt _ _ (Finset.mem_filter.mp he).2
  rw [hc, hs]
  show _ = (H (ix2 (look (rowOf x1 e)) k) * sOf x1 (look (rowOf x1 e))) * (r : EReal)
  rw [mul_comm (sOf x1 (look (rowOf x1 e))) (r : EReal), mul_assoc, mul_comm (r : EReal), mul_comm (sOf x1 _)]

theorem conv_eq (x1 : EdgeIx) (H : Mat) : conv x1 H = scaleRows x1 (agg x1 (scaleRows x1 H)) := by
  funext i
  exact convAt_eq x1 H (i 0) (i 1)

/-- THE TWO PROGRAMS' RESULTS ARE ONE FUNCTION. -/
theorem refOut_eq_kerOut (x0 : Mat) (x1 : EdgeIx) (x2 : Wt) (x3 : Bias) (x4 : Wt) (x5 : Bias) :
    refOut x0 x1 x2 x3 x4 x5 = kerOut x0 x1 x2 x3 x4 x5 := by
  unfold refOut kerOut
  rw [conv_eq, conv_eq]
  funext i
  show agg x1 (scaleRows x1 (lin (relu (scaleRows x1 (agg x1 (scaleRows x1 (lin x0 x2 x3))))) x4 x5)) i * sOf x1 (i 0) = _
  rw [mul_comm]
  rfl

end Cert.Gcn

end
-- ==== Proof.LibScatterGather.lean ====
/-
  Row scatter-add and row gather, read at an index. A table of N rows of width C; E row numbers, held as an
  [E, 1] array of integer words; E update rows of width C.
  Scatter-add: update element (e, k') lands on table element (i, k) exactly when the signed reading of word e
  is i and k' = k, so table element (i, k) receives the sum over those e whose word reads i of update (e, k).
  Gather: result element (e, k) is table element (r, k) with r the signed reading of word e clamped into [0, N - 1].
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.ScatterGather

open Idealize.ShloMosaic Idealize.ShloMosaic.ValueIdx

/-! ## Scatter-add along rows -/

/-- The dimension numbers of a scatter of whole rows: the update's axis 1 is the window, the table's axis 0 is
    the scattered one, one index word per update row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update element (e, k') starts at the signed reading of word e. -/
theorem start_row : (rowScatter N E C wf).start (ix2 e k') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (rowScatter N E C wf).start (ix2 e k') idx 1 = 0 := rfl

/-- The window coordinate on the row axis is 0 … -/
theorem window_row : (rowScatter N E C wf).window (ix2 e k') 0 = 0 := rfl

/-- … and on the column axis it is k'. -/
theorem window_col : (rowScatter N E C wf).window (ix2 e k') 1 = k'.val := rfl

end Scatter

section ScatterIdx
variable {N E C w : Nat} (wf : ScatterDims.WF ⟨2, ![N, C]⟩ ⟨2, ![E, 1]⟩ ⟨2, ![E, C]⟩ [1] [0] [0] 1)
  (idx : IVec ⟨2, ![E, 1]⟩ w)

/-- WHERE AN UPDATE ELEMENT LANDS: (e, k') lands on (i, k) exactly when word e reads i and k' = k. -/
theorem resultIdx_rows (e : Fin E) (k' : Fin C) (i : Fin N) (k : Fin C) :
    (rowScatter N E C wf).resultIdx? (ix2 e k') idx = some (ix2 i k) ↔ (idx (ix2 e 0)).toInt = (i.val : ℤ) ∧ k' = k := by
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [start_row, window_row, start_col, window_col] at h0 h1 g0
      refine ⟨?_, Fin.ext ?_⟩
      · show (idx (ix2 e 0)).toInt = (i.val : ℤ)
        have : ((idx (ix2 e 0)).toInt + ((0 : ℕ) : ℤ)).toNat = i.val := h0
        omega
      · have : ((0 : ℤ) + (k'.val : ℤ)).toNat = k.val := h1
        omega
    · rintro ⟨hv, rfl⟩
      funext a; refine Fin.ext ?_
      match a with
      | ⟨0, _⟩ =>
        show ((rowScatter N E C wf).start (ix2 e k') idx 0 + ((rowScatter N E C wf).window (ix2 e k') 0 : ℤ)).toNat = i.val
        rw [start_row, window_row, hv]; omega
      | ⟨1, _⟩ =>
        show ((rowScatter N E C wf).start (ix2 e k') idx 1 + ((rowScatter N E C wf).window (ix2 e k') 1 : ℤ)).toNat = k'.val
        rw [start_col, window_col]; omega
  · rename_i h
    constructor
    · intro hf; exact absurd hf (by simp)
    · rintro ⟨hv, rfl⟩
      refine absurd (fun a => ?_) h
      match a with
      | ⟨0, _⟩ =>
        show 0 ≤ (rowScatter N E C wf).start (ix2 e k') idx 0 + ((rowScatter N E C wf).window (ix2 e k') 0 : ℤ) ∧
          (rowScatter N E C wf).start (ix2 e k') idx 0 + ((rowScatter N E C wf).window (ix2 e k') 0 : ℤ) < (N : ℤ)
        rw [start_row, window_row, hv]; have := i.isLt; omega
      | ⟨1, _⟩ =>
        show 0 ≤ (rowScatter N E C wf).start (ix2 e k') idx 1 + ((rowScatter N E C wf).window (ix2 e k') 1 : ℤ) ∧
          (rowScatter N E C wf).start (ix2 e k') idx 1 + ((rowScatter N E C wf).window (ix2 e k') 1 : ℤ) < (C : ℤ)
        rw [start_col, window_col]; have := k'.isLt; omega

/-- THE SCATTER-ADD READ AT (i, k): the table's element plus the updates (e, k) of the rows e whose word reads i. -/
theorem scatterAdd_rows_apply (x : (⟨2, ![N, C]⟩ : Shape).Idx → EReal) (upd : (⟨2, ![E, C]⟩ : Shape).Idx → EReal)
    (i : Fin N) (k : Fin C) :
    Ideal.hostScatterAdd (rowScatter N E C wf) x idx upd (ix2 i k)
      = x (ix2 i k) + ∑ e ∈ Finset.univ.filter (fun e : Fin E => (idx (ix2 e 0)).toInt = (i.val : ℤ)), upd (ix2 e k) := by
  unfold Ideal.hostScatterAdd
  congr 1
  rw [Finset.sum_filter, sum_idx2, Finset.sum_filter]
  refine Finset.sum_congr rfl fun e _ => ?_
  simp only [resultIdx_rows]
  by_cases hv : (idx (ix2 e 0)).toInt = (i.val : ℤ)
  · simp only [hv, true_and, if_true]
    rw [Finset.sum_ite_eq' Finset.univ k (fun b => upd (ix2 e b))]
    simp
  · simp only [hv, false_and, if_false, Finset.sum_const_zero]

end ScatterIdx

/-! ## Gather along rows -/

/-- The dimension numbers of a gather of whole rows: one index word per result row names a table row
    (slices of one row, all C columns), the result's axis 1 runs over the columns. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}

/-- THE GATHER READ AT (e, k): the table at row "word e read signed, clamped into [0, N - 1]", column k. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGather N E C wf).start (ix2 e k) idx 0 + (rowGather N E C wf).batchCoord (ix2 e k) 0
        + (rowGather N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
        + (rowGather N E C wf).offCoord (ix2 e k) 1 = k.val
    rw [GatherDims.batchCoord_eq_zero _ _ _ List.not_mem_nil]
    have hs : (rowGather N E C wf).start (ix2 e k) idx 1 = 0 := rfl
    have ho : (rowGather N E C wf).offCoord (ix2 e k) 1 = k.val := rfl
    rw [hs, ho]; omega

/-- The same, with the table's row named by the caller: any r whose number is the clamped reading of word e. -/
theorem gather_rows_apply_of_eq (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e 0)).toInt.toNat (N - 1) = r.val) :
    Host.gather (rowGather N E C wf) x idx (ix2 e k) = x (ix2 r k) := by
  rw [gather_rows_apply hN wf]
  refine congrArg x (funext fun a => ?_)
  match a with
  | ⟨0, _⟩ => exact Fin.ext hr
  | ⟨1, _⟩ => rfl

end Gather

/-! ## Row lookup with a fill value for row numbers out of range

A lookup of rows of a table of 50000 rows by 800000 signed row numbers, in the form a lookup with "fill" mode
takes: a negative number is first wrapped by adding 50000; a row number that after that is outside [0, 49999]
gives a row of the fill value; otherwise the (clamped) gather gives the table's row. For a row number already
in [0, 50000) nothing is wrapped, both range tests pass, nothing is clamped, and the result is the table's row. -/

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at a result index when every element that reduces into it is 1. -/
theorem reduce_andi_eq_one_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_one x _ fun i hi' => ?_
  rw [List.mem_filter] at hi'
  exact hx i (by simpa using hi'.2)

/-- A vector of 800000 entries broadcast along axis 0 of an [800000, m] array reads, at (e, c), its entry e. -/
theorem broadcast_rows_apply {α : Type} {m : Nat}
    (hb : (⟨1, ![800000]⟩ : Shape).BroadcastsInDim ⟨2, ![800000, m]⟩ (![0] : Fin 1 → Fin 2))
    (x : (⟨1, ![800000]⟩ : Shape).Idx → α) (i : (⟨2, ![800000, m]⟩ : Shape).Idx) :
    broadcastInDim ⟨2, ![800000, m]⟩ ![0] hb x i = x (ix1 (i 0)) := by
  unfold broadcastInDim
  refine congrArg x (funext fun a => Fin.ext ?_)
  match a with
  | ⟨0, _⟩ => rfl

section Take
variable {F : FTy → Type} [FloatOps F] {C : Nat}
  (hb0 : (⟨0, ![]⟩ : Shape).BroadcastsInDim ⟨1, ![800000]⟩ (![] : Fin 0 → Fin (⟨1, ![800000]⟩ : Shape).rank))
  (hb1 : (⟨1, ![800000]⟩ : Shape).BroadcastsInDim ⟨2, ![800000, 1]⟩ (![0] : Fin 1 → Fin (⟨2, ![800000, 1]⟩ : Shape).rank))
  (hb2 : (⟨0, ![]⟩ : Shape).BroadcastsInDim ⟨2, ![800000, 1]⟩ (![] : Fin 0 → Fin (⟨2, ![800000, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![800000, 1]⟩ (![0, 1] : Fin 2 → Fin (⟨2, ![800000, 1]⟩ : Shape).rank))
  (hr : (⟨2, ![800000, 1]⟩ : Shape).ReducesTo [1] ⟨1, ![800000]⟩)
  (hu : 0 < (⟨0, ![]⟩ : Shape).numel)
  (hb5 : (⟨1, ![800000]⟩ : Shape).BroadcastsInDim ⟨2, ![800000, C]⟩ (![0] : Fin 1 → Fin (⟨2, ![800000, C]⟩ : Shape).rank))
  (hb6 : (⟨0, ![]⟩ : Shape).BroadcastsInDim ⟨2, ![800000, C]⟩ (![] : Fin 0 → Fin (⟨2, ![800000, C]⟩ : Shape).rank))
  (wf : GatherDims.WF ⟨2, ![50000, C]⟩ ⟨2, ![800000, 1]⟩ ⟨2, ![800000, C]⟩ [1] [0] [] [0] [] 1 ![1, C])

/-- The lookup: wrap negative row numbers, make the row numbers a column, test each against [0, 49999], gather the
    rows, and put the fill value (the pattern 0x7FC00000) where the test failed. -/
def takeFill (T : FVec F ⟨2, ![50000, C]⟩ .f32) (s : IVec ⟨1, ![800000]⟩ 32) : FVec F ⟨2, ![800000, C]⟩ .f32 :=
  select
    (broadcastInDim ⟨2, ![800000, C]⟩ ![0] hb5
      (Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu))
    (Host.gather (rowGather 50000 800000 C wf) T
      (broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s)))
    (broadcastInDim ⟨2, ![800000, C]⟩ ![] hb6 (constant ⟨0, ![]⟩ .f32 0x7FC00000#32))

/-- A nonnegative row number is not wrapped. -/
theorem wrap_apply (s : IVec ⟨1, ![800000]⟩ 32) (j : (⟨1, ![800000]⟩ : Shape).Idx) (h0 : 0 ≤ (s j).toInt) :
    select (cmpi .slt s (broadcastInDim ⟨1, ![800000]⟩ ![] hb0 (constantI ⟨0, ![]⟩ 32 0#32)))
      (addi s (broadcastInDim ⟨1, ![800000]⟩ ![] hb0 (constantI ⟨0, ![]⟩ 32 50000#32))) s j = s j := by
  show Scalar.select (IntOp.cmpi .slt (s j) 0#32) _ _ = s j
  unfold Scalar.select
  rw [if_neg]
  intro hc
  have := IntOp.cmpi_slt.1 hc
  rw [show (0#32 : BitVec 32).toInt = 0 from by decide] at this
  omega

/-- THE LOOKUP READ AT (e, k), for a row number in [0, 50000): the table's row of that number, column k. -/
theorem takeFill_apply (T : FVec F ⟨2, ![50000, C]⟩ .f32) (s : IVec ⟨1, ![800000]⟩ 32) (e : Fin 800000) (k : Fin C)
    (h0 : 0 ≤ (s (ix1 e)).toInt) (h1 : (s (ix1 e)).toInt < 50000) :
    takeFill hb0 hb1 hb2 hb3 hb4 hr hu hb5 hb6 wf T s (ix2 e k)
      = T (ix2 ⟨(s (ix1 e)).toInt.toNat, by omega⟩ k) := by
  unfold takeFill
  rw [select_apply, broadcast_rows_apply hb5]
  -- the row-number column read at row e is the row number e itself
  have hv : ∀ i : (⟨2, ![800000, 1]⟩ : Shape).Idx, i 0 = e →
      broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s) i = s (ix1 e) := by
    intro i hi
    rw [broadcast_rows_apply hb1, hi, wrap_apply hb0 s (ix1 e) h0]
  -- both range tests pass at row e
  have hok : Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu (ix1 ((ix2 e k : (⟨2, ![800000, C]⟩ : Shape).Idx) 0)) = 1#1 := by
    refine reduce_andi_eq_one_of_all _ _ hr hu _ rfl fun i hi => ?_
    have hi0 : i 0 = e := by
      have := congrArg Fin.val (congrFun hi 0)
      exact Fin.ext this
    show IntOp.andi (IntOp.cmpi .sge _ 0#32) (IntOp.cmpi .sle _ 49999#32) = 1#1
    rw [hv i hi0, IntOp.andi_eq_one, IntOp.cmpi_sge, IntOp.cmpi_sle,
      show (0#32 : BitVec 32).toInt = 0 from by decide, show (49999#32 : BitVec 32).toInt = 49999 from by decide]
    omega
  rw [hok, select_one]
  refine gather_rows_apply_of_eq (by decide) wf T _ e k _ ?_
  rw [hv (ix2 e 0) rfl]
  show min (s (ix1 e)).toInt.toNat (50000 - 1) = (s (ix1 e)).toInt.toNat
  omega

end Take

end Cert.ScatterGather

end
-- ==== Proof.LibVecScatter.lean ====
/-
  Scatter-add into a vector, read at an index. A vector of N entries; E positions, held as an [E, 1] array of integer
  words; E update values. Update e lands on entry i exactly when the signed reading of word e is i, so entry i
  receives the sum of the updates whose word reads i. The same sum is what a one-column matrix [N, 1] receives at
  (i, 0) from one-column update rows, so the two scatters agree entry by entry.
-/
import Idealize.ShloMosaic.PureOps.Ideal
import Idealize.ShloMosaic.PureOps.Ideal.Laws
import Idealize.ShloMosaic.Lib.ValueIdx
import proofs.«107122_j12206297055836_2_alg».proof.Proof.LibScatterGather

noncomputable section

open scoped BigOperators

namespace Cert.VecScatter

open Idealize.ShloMosaic Idealize.ShloMosaic.ValueIdx

/-- A rank-1 index is its one coordinate. -/
def idxEquiv1 {n : Nat} : (⟨1, ![n]⟩ : Shape).Idx ≃ Fin n where
  toFun j := j 0
  invFun a := ix1 a
  left_inv j := (eq_ix1 j).symm
  right_inv a := rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: no window axis on the updates, the vector's
    one axis is the scattered one, one index word per update. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- Update e's window starts at the signed reading of word e. -/
theorem start_vec (e : Fin E) : (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window axis: the window coordinate is 0. -/
theorem window_vec (e : Fin E) : (vecScatter N E wf).window (ix1 e) 0 = 0 := rfl

/-- WHERE AN UPDATE LANDS: update e lands on entry i exactly when word e reads i. -/
theorem resultIdx_vec (e : Fin E) (i : Fin N) :
    (vecScatter N E wf).resultIdx? (ix1 e) idx = some (ix1 i) ↔ (idx (ix2 e 0)).toInt = (i.val : ℤ) := by
  unfold ScatterDims.resultIdx?
  split
  · rename_i h
    rw [Option.some.injEq]
    constructor
    · intro hf
      have h0 := congrArg Fin.val (congrFun hf 0)
      simp only [start_vec, window_vec] at h0
      have g0 := (h 0).1
      simp only [start_vec, window_vec] at g0
      have : ((idx (ix2 e 0)).toInt + ((0 : ℕ) : ℤ)).toNat = i.val := h0
      omega
    · intro hv
      funext a; refine Fin.ext ?_
      match a with
      | ⟨0, _⟩ =>
        show ((vecScatter N E wf).start (ix1 e) idx 0 + ((vecScatter N E wf).window (ix1 e) 0 : ℤ)).toNat = i.val
        rw [start_vec, window_vec, hv]; omega
  · rename_i h
    constructor
    · intro hf; exact absurd hf (by simp)
    · intro hv
      refine absurd (fun a => ?_) h
      match a with
      | ⟨0, _⟩ =>
        show 0 ≤ (vecScatter N E wf).start (ix1 e) idx 0 + ((vecScatter N E wf).window (ix1 e) 0 : ℤ) ∧
          (vecScatter N E wf).start (ix1 e) idx 0 + ((vecScatter N E wf).window (ix1 e) 0 : ℤ) < (N : ℤ)
        rw [start_vec, window_vec, hv]; have := i.isLt; omega

/-- THE SCATTER-ADD READ AT i: the vector's entry plus the updates e whose word reads i. -/
theorem scatterAdd_vec_apply (x : (⟨1, ![N]⟩ : Shape).Idx → EReal) (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : ℤ)), upd (ix1 e) := by
  unfold Ideal.hostScatterAdd
  congr 1
  rw [Finset.sum_filter, sum_idx1, Finset.sum_filter]
  refine Finset.sum_congr rfl fun e _ => ?_
  simp only [resultIdx_vec]

/-- A constant scattered into a constant vector, and the same constant scattered as one-column rows into a constant
    one-column matrix, agree: entry i of the first is entry (i, 0) of the second. -/
theorem scatterAdd_vec_eq_col (wf' : ScatterDims.WF ⟨2, ![N, 1]⟩ ⟨2, ![E, 1]⟩ ⟨2, ![E, 1]⟩ [1] [0] [0] 1)
    (z o : EReal) (i : Fin N) :
    Ideal.hostScatterAdd (vecScatter N E wf) (fun _ => z) idx (fun _ => o) (ix1 i)
      = Ideal.hostScatterAdd (Cert.ScatterGather.rowScatter N E 1 wf') (fun _ => z) idx (fun _ => o) (ix2 i (0 : Fin 1)) := by
  rw [scatterAdd_vec_apply, Cert.ScatterGather.scatterAdd_rows_apply]

end

end Cert.VecScatter

end
-- ==== Proof.HostFns.lean ====
/-
  The host side of the idealized kernel program, as pure functions of buffer contents, read at an index.

  The program's host operations compute, from the [2, E] edge array: the two rows of words (the source words and the
  destination words, each a slice reshaped to a vector); the per-node scale column (the degree by a scatter-add of
  ones at the destination words, then 1/sqrt(max(deg, 1)) where deg > 0 and 0 elsewhere, laid out as an [N, 1]
  column); and, twice, the aggregation of a table (look its rows up at the wrapped source words, scatter-add them at
  the destination words). Read at an index these are the specification's `rowOf` / `colOf`, `sOf`, and `aggAt`.
-/
import proofs.«107122_j12206297055836_2_alg».proof.Proof.Gen.KernelIdeal
import proofs.«107122_j12206297055836_2_alg».proof.Proof.Spec
import proofs.«107122_j12206297055836_2_alg».proof.Proof.LibVecScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen
open Idealize.ShloMosaic Idealize.ShloMosaic.TcCoe Idealize.ShloMosaic.ValueIdx

abbrev EdgeBuf := (⟨S2x1600000, .i32⟩ : BufTy).Contents (Elt Ideal)
abbrev WordBuf := (⟨S1600000, .i32⟩ : BufTy).Contents (Elt Ideal)
abbrev MatBuf := (⟨S100000x64, .f32⟩ : BufTy).Contents (Elt Ideal)
abbrev ColBuf := (⟨S100000x1, .f32⟩ : BufTy).Contents (Elt Ideal)
abbrev VecBuf := (⟨S100000, .f32⟩ : BufTy).Contents (Elt Ideal)

/-! ## The stretches as functions -/

/-- Row r of the edge array as a vector of words. -/
def rowW (x1 : EdgeBuf) : WordBuf :=
  shapeCast S1600000 (extractStridedSlice S1x1600000 ![0, 0] x1 slices_S2x1600000_S1x1600000_0_0) shapeCasts_S1x1600000_S1600000
def colW (x1 : EdgeBuf) : WordBuf :=
  shapeCast S1600000 (extractStridedSlice S1x1600000 ![1, 0] x1 slices_S2x1600000_S1x1600000_1_0) shapeCasts_S1x1600000_S1600000

/-- The degree vector: ones scattered at the destination words into zeros. -/
def degW (colv : WordBuf) : VecBuf :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 colv)
    (broadcastInDim S1600000 ![] bcast_S_S1600000 (constant (F := Ideal) S_ .f32 0x3F800000#32))

/-- The scale column. -/
def disW (colv : WordBuf) : ColBuf :=
  broadcastInDim S100000x1 ![0] bcast_S100000_S100000x1_0
    (select
      (cmpf (F := Ideal) .ogt (degW colv) (broadcastInDim S100000 ![] bcast_S_S100000 (constant (F := Ideal) S_ .f32 0x00000000#32)))
      (Host.rsqrt (F := Ideal) (maximumf (degW colv) (broadcastInDim S100000 ![] bcast_S_S100000 (constant (F := Ideal) S_ .f32 0x3F800000#32))))
      (broadcastInDim S100000 ![] bcast_S_S100000 (id (constant (F := Ideal) S_ .f32 0x00000000#32))))

/-- The aggregation: the table's rows looked up at the (wrapped) source words, scatter-added at the destination words. -/
def aggW (colv rowv : WordBuf) (T : MatBuf) : MatBuf :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 colv)
    (Host.gather gather_S100000x64_S1600000x1_S1600000x64_1_0_n_n_0_1_164 T
      (broadcastInDim S1600000x1 ![0] bcast_S1600000_S1600000x1_0
        (select (cmpi .slt rowv (broadcastInDim S1600000 ![] bcast_S_S1600000 (constantI S_ 32 0#32)))
          (addi rowv (broadcastInDim S1600000 ![] bcast_S_S1600000 (constantI S_ 32 100000#32))) rowv)))

/-- The last stretch: the aggregation, every row times its scale. -/
def tailW (s : ColBuf) (colv rowv : WordBuf) (T : MatBuf) : MatBuf :=
  mulf (F := Ideal) (φ := .f32) (broadcastInDim S100000x64 ![0, 1] bcast_S100000x1_S100000x64_0_1 s) (aggW colv rowv T)

/-! ## The printed records and operations in the library lemmas' words -/

/-- At the exact reading the host's accumulating scatter is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

theorem vecRec_eq : scatter_S100000_S1600000x1_S1600000_n_0_0_1
    = Cert.VecScatter.vecScatter 100000 1600000 scatter_S100000_S1600000x1_S1600000_n_0_0_1_wf := rfl
theorem rowRec_eq : scatter_S100000x64_S1600000x1_S1600000x64_1_0_0_1
    = Cert.ScatterGather.rowScatter 100000 1600000 64 scatter_S100000x64_S1600000x1_S1600000x64_1_0_0_1_wf := rfl
theorem gatherRec_eq : gather_S100000x64_S1600000x1_S1600000x64_1_0_n_n_0_1_164
    = Cert.ScatterGather.rowGather 100000 1600000 64 gather_S100000x64_S1600000x1_S1600000x64_1_0_n_n_0_1_164_wf := rfl

/-- The broadcast constants read at an index. -/
theorem zeroVec_apply (i : S100000.Idx) :
    broadcastInDim S100000 ![] bcast_S_S100000 (constant (F := Ideal) S_ .f32 0x00000000#32) i = Cert.Gcn.Z := rfl
theorem oneEdge_apply (i : S1600000.Idx) :
    broadcastInDim S1600000 ![] bcast_S_S1600000 (constant (F := Ideal) S_ .f32 0x3F800000#32) i = Cert.Gcn.ONE := rfl
theorem oneVec_apply (i : S100000.Idx) :
    broadcastInDim S100000 ![] bcast_S_S100000 (constant (F := Ideal) S_ .f32 0x3F800000#32) i = Cert.Gcn.ONE := rfl
theorem zeroMat_apply (i : S100000x64.Idx) :
    broadcastInDim S100000x64 ![] bcast_S_S100000x64 (constant (F := Ideal) S_ .f32 0x00000000#32) i = Cert.Gcn.Z := rfl

theorem zeroVecId_apply (i : S100000.Idx) :
    broadcastInDim S100000 ![] bcast_S_S100000 (id (constant (F := Ideal) S_ .f32 0x00000000#32)) i = Cert.Gcn.Z := rfl
theorem hostRsqrt_apply (v : FVec Ideal S100000 .f32) (i : S100000.Idx) : Host.rsqrt (F := Ideal) (φ := .f32) v i = Ideal.rsqrt (v i) := rfl

/-! ## Read at an index -/

/-- The source words are row 0 of the edge array, the destination words row 1. -/
theorem rowW_apply (x1 : EdgeBuf) (e : Fin 1600000) : rowW x1 (ix1 e) = Cert.Gcn.rowOf x1 e := by
  unfold rowW Cert.Gcn.rowOf
  refine (shapeCast_apply _ shapeCasts_S1x1600000_S1600000 (ix1 e) (ix2 (0 : Fin 1) e) ?_).trans ?_
  · rewrite [Shape.rowMajor_val_two, Shape.rowMajor_val_one]; show 0 * 1600000 + e.val = e.val; omega
  · exact extractStridedSlice_apply ![0, 0] x1 slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

theorem colW_apply (x1 : EdgeBuf) (e : Fin 1600000) : colW x1 (ix1 e) = Cert.Gcn.colOf x1 e := by
  unfold colW Cert.Gcn.colOf
  refine (shapeCast_apply _ shapeCasts_S1x1600000_S1600000 (ix1 e) (ix2 (0 : Fin 1) e) ?_).trans ?_
  · rewrite [Shape.rowMajor_val_two, Shape.rowMajor_val_one]; show 0 * 1600000 + e.val = e.val; omega
  · exact extractStridedSlice_apply ![1, 0] x1 slices_S2x1600000_S1x1600000_1_0 (ix2 (0 : Fin 1) e) (ix2 (1 : Fin 2) e)
      (fun a => match a with
        | ⟨0, _⟩ => by show (1 : Nat) = 1 + 0; rfl
        | ⟨1, _⟩ => by show e.val = 0 + e.val; omega)

/-- A vector of words laid out as an [E, 1] column reads, at (e, 0), its entry e. -/
theorem wordCol_apply (v : WordBuf) (e : Fin 1600000) :
    broadcastInDim S1600000x1 ![0] bcast_S1600000_S1600000x1_0 v (ix2 e (0 : Fin 1)) = v (ix1 e) :=
  broadcastInDim_apply _ bcast_S1600000_S1600000x1_0 v (ix2 e (0 : Fin 1)) (ix1 e) (fun a => match a with
    | ⟨0, _⟩ => by show e.val = if (1600000 : Nat) = 1 then 0 else e.val; rw [if_neg (by decide)])

/-- The degree of node n: a one for every edge whose destination word reads n. -/
theorem degW_apply (colv : WordBuf) (n : Fin 100000) :
    degW colv (ix1 n) = Cert.Gcn.Z + ∑ e ∈ Finset.univ.filter (fun e : Fin 1600000 => (colv (ix1 e)).toInt = (n.val : ℤ)), Cert.Gcn.ONE := by
  unfold degW
  rw [scatterAdd_ideal, vecRec_eq, Cert.VecScatter.scatterAdd_vec_apply, zeroVec_apply]
  refine congrArg (Cert.Gcn.Z + ·) ?_
  exact Finset.sum_congr (Finset.filter_congr fun e _ => by rw [wordCol_apply]) (fun e _ => oneEdge_apply _)

/-- The scale column at (n, 0) is the scale of node n's degree. -/
theorem disW_apply (colv : WordBuf) (n : Fin 100000) :
    disW colv (ix2 n (0 : Fin 1)) = Cert.Gcn.disOf (degW colv (ix1 n)) := by
  unfold disW
  refine (broadcastInDim_apply _ bcast_S100000_S100000x1_0 _ (ix2 n (0 : Fin 1)) (ix1 n) (fun a => match a with
    | ⟨0, _⟩ => by show n.val = if (100000 : Nat) = 1 then 0 else n.val; rw [if_neg (by decide)])).trans ?_
  rw [select_apply, cmpf_apply, hostRsqrt_apply, maximumf_apply, zeroVec_apply, oneVec_apply, zeroVecId_apply]
  rfl

/-- The aggregation at (n, k): the table's rows at the looked-up source words of the edges whose destination word
    reads n, summed onto zero. -/
theorem aggW_apply (colv rowv : WordBuf) (T : MatBuf) (n : Fin 100000) (k : Fin 64) :
    aggW colv rowv T (ix2 n k)
      = Cert.Gcn.Z + ∑ e ∈ Finset.univ.filter (fun e : Fin 1600000 => (colv (ix1 e)).toInt = (n.val : ℤ)),
          T (ix2 (Cert.Gcn.look (rowv (ix1 e))) k) := by
  unfold aggW
  rw [scatterAdd_ideal, rowRec_eq, Cert.ScatterGather.scatterAdd_rows_apply, zeroMat_apply, gatherRec_eq]
  refine congrArg (Cert.Gcn.Z + ·) ?_
  refine Finset.sum_congr (Finset.filter_congr fun e _ => by rw [wordCol_apply]) (fun e _ => ?_)
  refine Cert.ScatterGather.gather_rows_apply_of_eq (N := 100000) (E := 1600000) (C := 64) (Nat.succ_pos _)
    gather_S100000x64_S1600000x1_S1600000x64_1_0_n_n_0_1_164_wf T _ e k (Cert.Gcn.look (rowv (ix1 e))) ?_
  rw [wordCol_apply]
  rfl

/-- The last stretch at (n, k): the scale at (n, 0) times the aggregation. -/
theorem tailW_apply (s : ColBuf) (colv rowv : WordBuf) (T : MatBuf) (n : Fin 100000) (k : Fin 64) :
    tailW s colv rowv T (ix2 n k) = s (ix2 n (0 : Fin 1)) * aggW colv rowv T (ix2 n k) := by
  unfold tailW
  refine (mulf_apply _ _ _).trans ?_
  refine congrArg (· * _) ?_
  exact broadcastInDim_apply _ bcast_S100000x1_S100000x64_0_1 s (ix2 n k) (ix2 n (0 : Fin 1)) (fun a => match a with
    | ⟨0, _⟩ => by show n.val = if (100000 : Nat) = 1 then 0 else n.val; rw [if_neg (by decide)]
    | ⟨1, _⟩ => by show (0 : Nat) = if (1 : Nat) = 1 then 0 else k.val; rw [if_pos rfl])

/-! ## As the specification's arrays -/

theorem into_eq (x1 : EdgeBuf) (n : Fin 100000) :
    Finset.univ.filter (fun e : Fin 1600000 => (colW x1 (ix1 e)).toInt = (n.val : ℤ)) = Cert.Gcn.into x1 n := by
  unfold Cert.Gcn.into
  exact Finset.filter_congr fun e _ => by rw [colW_apply]

theorem disW_eq (x1 : EdgeBuf) : disW (colW x1) = Cert.Gcn.sCol x1 := by
  funext i
  obtain ⟨n, z, rfl⟩ : ∃ (n : Fin 100000) (z : Fin 1), i = ix2 n z := ⟨i 0, i 1, eq_ix2 i⟩
  obtain rfl : z = 0 := Subsingleton.elim _ _
  rw [disW_apply, degW_apply, into_eq]
  rfl

theorem aggW_eq (x1 : EdgeBuf) (T : MatBuf) : aggW (colW x1) (rowW x1) T = Cert.Gcn.agg x1 T := by
  funext i
  obtain ⟨n, k, rfl⟩ : ∃ (n : Fin 100000) (k : Fin 64), i = ix2 n k := ⟨i 0, i 1, eq_ix2 i⟩
  rw [aggW_apply, into_eq]
  show _ = Cert.Gcn.aggAt x1 T n k
  unfold Cert.Gcn.aggAt
  refine congrArg₂ (· + ·) rfl (Finset.sum_congr rfl fun e _ => ?_)
  rw [rowW_apply]

theorem tailW_eq (x1 : EdgeBuf) (T : MatBuf) :
    tailW (Cert.Gcn.sCol x1) (colW x1) (rowW x1) T = fun i => Cert.Gcn.sOf x1 (i 0) * Cert.Gcn.agg x1 T i := by
  funext i
  obtain ⟨n, k, rfl⟩ : ∃ (n : Fin 100000) (k : Fin 64), i = ix2 n k := ⟨i 0, i 1, eq_ix2 i⟩
  rw [tailW_apply, aggW_eq]
  rfl

end Cert.KernelIdeal.HostValue

end
-- ==== Proof.RegionValue.lean ====
/-
  The two kernel regions of the idealized kernel program as whole-array functions.

  Each region runs a grid of 20 points over row blocks of 5000 rows. At a point the body computes, from the row
  block X, the whole weight matrix W, the whole bias b and the matching block of the one-column array s, the block
  (X · W + b) with each row multiplied by its entry of s (region 0), and the same after X has first been scaled row
  by row by s and clamped below at 0 (region 1). Row r of the array lies in the block of point r / 5000, at row
  r % 5000 of it, so the array the region leaves is that function of the four whole arrays, index by index.
-/
import proofs.«107122_j12206297055836_2_alg».proof.Proof.Gen.KernelIdeal.Frame
import proofs.«107122_j12206297055836_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Facts₀ Cert.KernelIdeal.Facts Idealize.ShloMosaic Idealize.ShloMosaic.TcCoe Idealize.ShloMosaic.ValueIdx Idealize.SL.Sem
open Idealize.ShloMosaic.Pipeline (Dat)

/-! ## The payloads at an index -/

/-- Which entries of the two operands the block matmul multiplies: on the left, row `i 0` and the contracted
    coordinate; on the right, the contracted coordinate and column `i 1`. -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block matmul into the zero accumulator, at (p, q): the sum over the contracted axis. -/
theorem matmul_at (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ j : Fin 64, a (ix2 p j) * b (ix2 j q) := by
  refine (Ideal.matmul_constant_zero_apply dot_S5000x64_S64x64_S5000x64_1_0_0_1_n_n none a b (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias, viewed as one row and repeated down the rows, reads its entry q at (p, q). -/
theorem bias_at (v : FVec Ideal S64 .f32) (p : Fin 5000) (q : Fin 64) :
    broadcastTo S5000x64 (shapeCast S1x64 v shapeCasts_S64_S1x64) broadcasts_S1x64_S5000x64 (ix2 p q) = v (ix1 q) := by
  refine (broadcastTo_apply _ broadcasts_S1x64_S5000x64 (ix2 p q) (ix2 (0 : Fin 1) q) (fun a => ?_)).trans ?_
  · match a with
    | ⟨0, _⟩ => rfl
    | ⟨1, _⟩ => rfl
  · refine (shapeCast_apply v shapeCasts_S64_S1x64 (ix2 (0 : Fin 1) q) (ix1 q) ?_).trans rfl
    rw [Shape.rowMajor_val_one, Shape.rowMajor_val_two]
    show q.val = 0 * 64 + q.val
    omega

/-- The one-column block, repeated along the columns, reads its row entry (p, 0) at (p, q). -/
theorem col_at (v : FVec Ideal S5000x1 .f32) (p : Fin 5000) (q : Fin 64) :
    broadcastTo S5000x64 (shapeCast S5000x1 v shapeCasts_S5000x1_S5000x1) broadcasts_S5000x1_S5000x64 (ix2 p q) = v (ix2 p 0) := by
  rw [shapeCast_self]
  refine broadcastTo_apply v broadcasts_S5000x1_S5000x64 (ix2 p q) (ix2 p (0 : Fin 1)) (fun a => ?_)
  match a with
  | ⟨0, _⟩ => rfl
  | ⟨1, _⟩ => rfl

/-- Region 0's payload at (p, q). -/
theorem pay0_at (v0 : Vec Ideal S5000x64 .f32) (v2 : Vec Ideal S64x64 .f32) (v5 : Vec Ideal S64 .f32) (v9 : Vec Ideal S5000x1 .f32)
    (p : Fin 5000) (q : Fin 64) :
    Gen.k0_pay1 (F := Ideal) v0 v2 v5 v9 (ix2 p q)
      = ((∑ j : Fin 64, v0 (ix2 p j) * v2 (ix2 j q)) + v5 (ix1 q)) * v9 (ix2 p 0) := by
  unfold Gen.k0_pay1
  refine (mulf_apply _ _ _).trans ?_
  refine congrArg₂ (· * ·) ((addf_apply _ _ _).trans (congrArg₂ (· + ·) ?_ ?_)) ?_
  · exact matmul_at _ _ p q
  · exact bias_at v5 p q
  · exact col_at v9 p q

/-- Region 1's payload at (p, q): the rows first scaled by the column entry and clamped below at 0. -/
theorem pay1_at (v0 : Vec Ideal S5000x64 .f32) (v2 : Vec Ideal S5000x1 .f32) (v9 : Vec Ideal S64x64 .f32) (v12 : Vec Ideal S64 .f32)
    (v16 : Vec Ideal S5000x1 .f32) (p : Fin 5000) (q : Fin 64) :
    Gen.k1_pay1 (F := Ideal) v0 v2 v9 v12 v16 (ix2 p q)
      = ((∑ j : Fin 64, max (v0 (ix2 p j) * v2 (ix2 p 0)) Cert.Gcn.Z * v9 (ix2 j q)) + v12 (ix1 q)) * v16 (ix2 p 0) := by
  unfold Gen.k1_pay1
  refine (mulf_apply _ _ _).trans ?_
  refine congrArg₂ (· * ·) ((addf_apply _ _ _).trans (congrArg₂ (· + ·) ?_ ?_)) ?_
  · refine (matmul_at _ _ p q).trans ?_
    refine Finset.sum_congr rfl fun j _ => ?_
    refine congrArg₂ (· * ·) ?_ rfl
    show max (shapeCast S5000x64 v0 shapeCasts_S5000x64_S5000x64 (ix2 p j)
        * broadcastTo S5000x64 (shapeCast S5000x1 v2 shapeCasts_S5000x1_S5000x1) broadcasts_S5000x1_S5000x64 (ix2 p j)) Cert.Gcn.Z = _
    rw [col_at v2 p j, shapeCast_self]
  · exact bias_at v12 p q
  · exact col_at v16 p q

/-! ## From the blocks to the array -/

theorem hz : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ### Region 0 -/

/-- The printed index maps of region 0, decided over the grid: the row-blocked windows sit at block (t, 0), the
    whole-array windows at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at point t is rows 5000 t … 5000 t + 4999 of its array. -/
theorem iblk0_0_apply (c : Dev nD) (t : Fin cfg0.N) (x : S5000x64.Idx) (k : S100000x64.Idx)
    (hk0 : (k 0).val = t.val * 5000 + (x 0).val) (hk1 : (k 1).val = (x 1).val) :
    (Gen.iblk0 V c 0 t : Vec Ideal S5000x64 .f32) x = (V c main_arg0 : S100000x64.Idx → EReal) k := by
  obtain ⟨e0, e1, -⟩ := idx_facts0 t
  unfold Gen.iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- Window 1's block is its whole array. -/
theorem iblk0_1_apply (c : Dev nD) (t : Fin cfg0.N) (x : S64x64.Idx) :
    (Gen.iblk0 V c 1 t : Vec Ideal S64x64 .f32) x = (V c main_arg2 : S64x64.Idx → EReal) x := by
  obtain ⟨-, -, e0, e1, -⟩ := idx_facts0 t
  unfold Gen.iblk0
  rw [View.read_apply]
  show V c main_arg2 _ = V c main_arg2 _
  congr 1
  funext a
  apply Fin.ext
  match a with
  | ⟨0, _⟩ => show win0_1.index t (0 : Fin 2) * 64 + 1 * (x 0).val = (x 0).val; rw [e0]; omega
  | ⟨1, _⟩ => show win0_1.index t (1 : Fin 2) * 64 + 1 * (x 1).val = (x 1).val; rw [e1]; omega

/-- Window 2's block is its whole array. -/
theorem iblk0_2_apply (c : Dev nD) (t : Fin cfg0.N) (x : S64.Idx) :
    (Gen.iblk0 V c 2 t : Vec Ideal S64 .f32) x = (V c main_arg3 : S64.Idx → EReal) x := by
  obtain ⟨-, -, -, -, e0, -⟩ := idx_facts0 t
  unfold Gen.iblk0
  rw [View.read_apply]
  show V c main_arg3 _ = V c main_arg3 _
  congr 1
  funext a
  apply Fin.ext
  match a with
  | ⟨0, _⟩ => show win0_2.index t (0 : Fin 1) * 64 + 1 * (x 0).val = (x 0).val; rw [e0]; omega

/-- Window 3's block at point t is rows 5000 t … 5000 t + 4999 of the one-column array. -/
theorem iblk0_3_apply (c : Dev nD) (t : Fin cfg0.N) (x : S5000x1.Idx) (k : S100000x1.Idx)
    (hk0 : (k 0).val = t.val * 5000 + (x 0).val) (hk1 : (k 1).val = (x 1).val) :
    (Gen.iblk0 V c 3 t : Vec Ideal S5000x1 .f32) x = (V c main_v14 : S100000x1.Idx → EReal) k := by
  obtain ⟨-, -, -, -, -, e0, e1, -⟩ := idx_facts0 t
  unfold Gen.iblk0
  rw [View.read_apply]
  show V c main_v14 _ = V c main_v14 _
  congr 1
  funext a
  apply Fin.ext
  match a with
  | ⟨0, _⟩ => show win0_3.index t (0 : Fin 2) * 5000 + 1 * (x 0).val = (k 0).val; rw [e0, hk0]; omega
  | ⟨1, _⟩ => show win0_3.index t (1 : Fin 2) * 1 + 1 * (x 1).val = (k 1).val; rw [e1, hk1]; omega

/-- The payload of region 0 on blocks that are rows 5000 n … of X and of s, the whole W and the whole b, at an index y
    of the block, is the region's function of the four arrays at row 5000 n + y 0, column y 1. -/
theorem pay0_block (X : S100000x64.Idx → EReal) (W : S64x64.Idx → EReal) (b : S64.Idx → EReal) (s : S100000x1.Idx → EReal)
    (x0 : Vec Ideal S5000x64 .f32) (x1 : Vec Ideal S64x64 .f32) (x2 : Vec Ideal S64 .f32) (x3 : Vec Ideal S5000x1 .f32) (n : Nat)
    (h0 : ∀ (y : S5000x64.Idx) (k : S100000x64.Idx), (k 0).val = n * 5000 + (y 0).val → (k 1).val = (y 1).val → x0 y = X k)
    (h1 : ∀ y : S64x64.Idx, x1 y = W y) (h2 : ∀ y : S64.Idx, x2 y = b y)
    (h3 : ∀ (y : S5000x1.Idx) (k : S100000x1.Idx), (k 0).val = n * 5000 + (y 0).val → (k 1).val = (y 1).val → x3 y = s k)
    (y : S5000x64.Idx) (i : S100000x64.Idx) (hi0 : (i 0).val = n * 5000 + (y 0).val) (hi1 : (i 1).val = (y 1).val) :
    Gen.k0_pay1 (F := Ideal) x0 x1 x2 x3 y = Cert.Gcn.regionLin X W b s i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hq : q' = q := Fin.ext hi1
  subst hq
  have hr : r.val = n * 5000 + p.val := hi0
  rw [pay0_at]
  show _ = ((∑ j : Fin 64, X (ix2 r j) * W (ix2 j q')) + b (ix1 q')) * s (ix2 r 0)
  rw [h3 (ix2 p 0) (ix2 r 0) hr rfl, h2 (ix1 q')]
  congr 2
  refine Finset.sum_congr rfl fun j _ => ?_
  rw [h0 (ix2 p j) (ix2 r j) hr rfl, h1 (ix2 j q')]

/-- What point t writes back is block t of the region's function of the four arrays as the region finds them. -/
theorem flushed0_eq (c : Dev nD) (t : Fin cfg0.N) :
    (Gen.dat0 (F := Ideal) V c).flushed 4 t
      = ((cfg0.win 4).blk t).view.read (Elt Ideal)
          (Cert.Gcn.regionLin (V c main_arg0) (V c main_arg2) (V c main_arg3) (V c main_v14) : S100000x64.Idx → EReal) := by
  show (cfg0.win 4).cut (grid0.coords t) ((Gen.dat0 V c).after 4 t) = _
  rw [Gen.after0_4]
  unfold Gen.out0_4
  rw [View.canon_unit_zero hz]
  simp only [View.ld_unit_zero (S := S5000x64) hz, View.ld_unit_zero (S := S64x64) hz, View.ld_unit_zero (S := S64) hz1,
    View.ld_unit_zero (S := S5000x1) hz]
  obtain ⟨-, -, -, -, -, -, -, e0, e1⟩ := idx_facts0 t
  funext y
  show Gen.k0_pay1 (F := Ideal) (Gen.iblk0 V c 0 t) (Gen.iblk0 V c 1 t) (Gen.iblk0 V c 2 t) (Gen.iblk0 V c 3 t) y
    = Cert.Gcn.regionLin (V c main_arg0) (V c main_arg2) (V c main_arg3) (V c main_v14) (((cfg0.win 4).blk t).view.emb y)
  refine pay0_block (V c main_arg0) (V c main_arg2) (V c main_arg3) (V c main_v14)
    (Gen.iblk0 V c 0 t) (Gen.iblk0 V c 1 t) (Gen.iblk0 V c 2 t) (Gen.iblk0 V c 3 t) t.val
    (fun x k hk0 hk1 => iblk0_0_apply V c t x k hk0 hk1) (fun x => iblk0_1_apply V c t x) (fun x => iblk0_2_apply V c t x)
    (fun x k hk0 hk1 => iblk0_3_apply V c t x k hk0 hk1) y (((cfg0.win 4).blk t).view.emb y) ?_ ?_
  · show win0_4.index t (0 : Fin 2) * 5000 + 1 * (y 0).val = t.val * 5000 + (y 0).val
    rw [e0]; omega
  · show win0_4.index t (1 : Fin 2) * 64 + 1 * (y 1).val = (y 1).val
    rw [e1]; omega

/-- An index of the array is in point t's block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v15).slice (win0_4.rect t)).set ↔ _
  rw [View.set_slice_whole, Rect.mem_set_unit]
  exact Iff.rfl

/-- Row r of the array is in the block of point r / 5000. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := Gen.N_0
  let t : Fin cfg0.N := ⟨(i 0).val / 5000, by omega⟩
  obtain ⟨-, -, -, -, -, -, -, e0, e1⟩ := idx_facts0 t
  have ht : t.val = (i 0).val / 5000 := rfl
  refine ⟨t, Gen.flush0_4 t, ?_⟩
  rw [mem_blk0]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 64 ≤ (i 1).val ∧ (i 1).val < win0_4.index t (1 : Fin 2) * 64 + 64; rw [e1]; omega

/-- THE ARRAY REGION 0 LEAVES: (X · W + b), each row times its entry of the one-column array. -/
theorem final0 (c : Dev nD) :
    (Gen.dat0 (F := Ideal) V c).arrAt 4 cfg0.N
      = (Cert.Gcn.regionLin (V c main_arg0) (V c main_arg2) (V c main_arg3) (V c main_v14) : S100000x64.Idx → EReal) :=
  (Gen.dat0 (F := Ideal) V c).arrAt_eq_of_cover 4
    (Cert.Gcn.regionLin (V c main_arg0) (V c main_arg2) (V c main_arg3) (V c main_v14) : S100000x64.Idx → EReal)
    (fun t _ => flushed0_eq V c t) cover0

/-! ### Region 1 -/

/-- The printed index maps of region 1, decided over the grid: the row-blocked windows sit at block (t, 0), the
    whole-array windows at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Window 0's block at point t is rows 5000 t … 5000 t + 4999 of its array. -/
theorem iblk1_0_apply (c : Dev nD) (t : Fin cfg1.N) (x : S5000x64.Idx) (k : S100000x64.Idx)
    (hk0 : (k 0).val = t.val * 5000 + (x 0).val) (hk1 : (k 1).val = (x 1).val) :
    (Gen.iblk1 V c 0 t : Vec Ideal S5000x64 .f32) x = (V c main_v25 : S100000x64.Idx → EReal) k := by
  obtain ⟨e0, e1, -⟩ := idx_facts1 t
  unfold Gen.iblk1
  rw [View.read_apply]
  show V c main_v25 _ = V c main_v25 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- Window 1's block is its whole array. -/
theorem iblk1_1_apply (c : Dev nD) (t : Fin cfg1.N) (x : S64x64.Idx) :
    (Gen.iblk1 V c 1 t : Vec Ideal S64x64 .f32) x = (V c main_arg4 : S64x64.Idx → EReal) x := by
  obtain ⟨-, -, e0, e1, -⟩ := idx_facts1 t
  unfold Gen.iblk1
  rw [View.read_apply]
  show V c main_arg4 _ = V c main_arg4 _
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- Window 2's block is its whole array. -/
theorem iblk1_2_apply (c : Dev nD) (t : Fin cfg1.N) (x : S64.Idx) :
    (Gen.iblk1 V c 2 t : Vec Ideal S64 .f32) x = (V c main_arg5 : S64.Idx → EReal) x := by
  obtain ⟨-, -, -, -, e0, -⟩ := idx_facts1 t
  unfold Gen.iblk1
  rw [View.read_apply]
  show V c main_arg5 _ = V c main_arg5 _
  congr 1
  funext a
  apply Fin.ext
  match a with
  | ⟨0, _⟩ => show win1_2.index t (0 : Fin 1) * 64 + 1 * (x 0).val = (x 0).val; rw [e0]; omega

/-- Window 3's block at point t is rows 5000 t … 5000 t + 4999 of the one-column array. -/
theorem iblk1_3_apply (c : Dev nD) (t : Fin cfg1.N) (x : S5000x1.Idx) (k : S100000x1.Idx)
    (hk0 : (k 0).val = t.val * 5000 + (x 0).val) (hk1 : (k 1).val = (x 1).val) :
    (Gen.iblk1 V c 3 t : Vec Ideal S5000x1 .f32) x = (V c main_v14 : S100000x1.Idx → EReal) k := by
  obtain ⟨-, -, -, -, -, e0, e1, -⟩ := idx_facts1 t
  unfold Gen.iblk1
  rw [View.read_apply]
  show V c main_v14 _ = V c main_v14 _
  congr 1
  funext a
  apply Fin.ext
  match a with
  | ⟨0, _⟩ => show win1_3.index t (0 : Fin 2) * 5000 + 1 * (x 0).val = (k 0).val; rw [e0, hk0]; omega
  | ⟨1, _⟩ => show win1_3.index t (1 : Fin 2) * 1 + 1 * (x 1).val = (k 1).val; rw [e1, hk1]; omega

/-- The payload of region 1 on blocks that are rows 5000 n … of X and of s, the whole W and the whole b, at an index y
    of the block, is the region's function of the four arrays at row 5000 n + y 0, column y 1. -/
theorem pay1_block (X : S100000x64.Idx → EReal) (W : S64x64.Idx → EReal) (b : S64.Idx → EReal) (s : S100000x1.Idx → EReal)
    (x0 : Vec Ideal S5000x64 .f32) (x1 : Vec Ideal S64x64 .f32) (x2 : Vec Ideal S64 .f32) (x3 : Vec Ideal S5000x1 .f32) (n : Nat)
    (h0 : ∀ (y : S5000x64.Idx) (k : S100000x64.Idx), (k 0).val = n * 5000 + (y 0).val → (k 1).val = (y 1).val → x0 y = X k)
    (h1 : ∀ y : S64x64.Idx, x1 y = W y) (h2 : ∀ y : S64.Idx, x2 y = b y)
    (h3 : ∀ (y : S5000x1.Idx) (k : S100000x1.Idx), (k 0).val = n * 5000 + (y 0).val → (k 1).val = (y 1).val → x3 y = s k)
    (y : S5000x64.Idx) (i : S100000x64.Idx) (hi0 : (i 0).val = n * 5000 + (y 0).val) (hi1 : (i 1).val = (y 1).val) :
    Gen.k1_pay1 (F := Ideal) x0 x3 x1 x2 x3 y = Cert.Gcn.regionReluLin X W b s i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hq : q' = q := Fin.ext hi1
  subst hq
  have hr : r.val = n * 5000 + p.val := hi0
  rw [pay1_at]
  show _ = ((∑ j : Fin 64, max (X (ix2 r j) * s (ix2 r 0)) Cert.Gcn.Z * W (ix2 j q')) + b (ix1 q')) * s (ix2 r 0)
  rw [h3 (ix2 p 0) (ix2 r 0) hr rfl, h2 (ix1 q')]
  congr 2
  refine Finset.sum_congr rfl fun j _ => ?_
  rw [h0 (ix2 p j) (ix2 r j) hr rfl, h1 (ix2 j q')]

/-- What point t writes back is block t of the region's function of the four arrays as the region finds them. -/
theorem flushed1_eq (c : Dev nD) (t : Fin cfg1.N) :
    (Gen.dat1 (F := Ideal) V c).flushed 4 t
      = ((cfg1.win 4).blk t).view.read (Elt Ideal)
          (Cert.Gcn.regionReluLin (V c main_v25) (V c main_arg4) (V c main_arg5) (V c main_v14) : S100000x64.Idx → EReal) := by
  show (cfg1.win 4).cut (grid1.coords t) ((Gen.dat1 V c).after 4 t) = _
  rw [Gen.after1_4]
  unfold Gen.out1_4
  rw [View.canon_unit_zero hz]
  simp only [View.ld_unit_zero (S := S5000x64) hz, View.ld_unit_zero (S := S64x64) hz, View.ld_unit_zero (S := S64) hz1,
    View.ld_unit_zero (S := S5000x1) hz]
  obtain ⟨-, -, -, -, -, -, -, e0, e1⟩ := idx_facts1 t
  funext y
  show Gen.k1_pay1 (F := Ideal) (Gen.iblk1 V c 0 t) (Gen.iblk1 V c 3 t) (Gen.iblk1 V c 1 t) (Gen.iblk1 V c 2 t) (Gen.iblk1 V c 3 t) y
    = Cert.Gcn.regionReluLin (V c main_v25) (V c main_arg4) (V c main_arg5) (V c main_v14) (((cfg1.win 4).blk t).view.emb y)
  refine pay1_block (V c main_v25) (V c main_arg4) (V c main_arg5) (V c main_v14)
    (Gen.iblk1 V c 0 t) (Gen.iblk1 V c 1 t) (Gen.iblk1 V c 2 t) (Gen.iblk1 V c 3 t) t.val
    (fun x k hk0 hk1 => iblk1_0_apply V c t x k hk0 hk1) (fun x => iblk1_1_apply V c t x) (fun x => iblk1_2_apply V c t x)
    (fun x k hk0 hk1 => iblk1_3_apply V c t x k hk0 hk1) y (((cfg1.win 4).blk t).view.emb y) ?_ ?_
  · show win1_4.index t (0 : Fin 2) * 5000 + 1 * (y 0).val = t.val * 5000 + (y 0).val
    rw [e0]; omega
  · show win1_4.index t (1 : Fin 2) * 64 + 1 * (y 1).val = (y 1).val
    rw [e1]; omega

/-- An index of the array is in point t's block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v26).slice (win1_4.rect t)).set ↔ _
  rw [View.set_slice_whole, Rect.mem_set_unit]
  exact Iff.rfl

/-- Row r of the array is in the block of point r / 5000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := Gen.N_1
  let t : Fin cfg1.N := ⟨(i 0).val / 5000, by omega⟩
  obtain ⟨-, -, -, -, -, -, -, e0, e1⟩ := idx_facts1 t
  have ht : t.val = (i 0).val / 5000 := rfl
  refine ⟨t, Gen.flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

/-- THE ARRAY REGION 1 LEAVES: the rows of X scaled by the one-column array and clamped below at 0, then
    (· W + b), each row times its entry of the one-column array. -/
theorem final1 (c : Dev nD) :
    (Gen.dat1 (F := Ideal) V c).arrAt 4 cfg1.N
      = (Cert.Gcn.regionReluLin (V c main_v25) (V c main_arg4) (V c main_arg5) (V c main_v14) : S100000x64.Idx → EReal) :=
  (Gen.dat1 (F := Ideal) V c).arrAt_eq_of_cover 4
    (Cert.Gcn.regionReluLin (V c main_v25) (V c main_arg4) (V c main_arg5) (V c main_v14) : S100000x64.Idx → EReal)
    (fun t _ => flushed1_eq V c t) cover1

end Cert.KernelIdeal.RegionValue

end
-- ==== Proof.KernelRun.lean ====
/-
  The idealized kernel program's run with its result named: every weakly fair execution of @main ends with the
  result buffer at the contents the last host stretch leaves (the fold of the program's seven segments over the launch
  memory), and the argument arrays unchanged.
-/
import proofs.«107122_j12206297055836_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates without a fault, the result buffer holds what the last stretch of host
    operations leaves there, and the six argument arrays are as launched. -/
theorem run_result : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.KernelHost.lean ====
/-
  The idealized kernel program's result as the specification's function of the six argument arrays.

  The program is seven segments: three stretches of host operations, the first kernel region, a stretch, the second
  region, a last stretch. The buffer contents at each boundary are a fold from the launch memory; here each buffer
  that a later segment reads is walked back through the fold to what wrote it: the edge words and the scale column
  to the first stretches, each region's output to the region's whole-array function of its input arrays, each
  aggregation to its stretch, and the arguments to the launch memory (no segment writes them).
-/
import proofs.«107122_j12206297055836_2_alg».proof.Proof.Gen.KernelIdeal.Frame
import proofs.«107122_j12206297055836_2_alg».proof.Proof.Spec
import proofs.«107122_j12206297055836_2_alg».proof.Proof.HostFns
import proofs.«107122_j12206297055836_2_alg».proof.Proof.RegionValue
import proofs.«107122_j12206297055836_2_alg».proof.Proof.KernelRun
import Idealize.ShloMosaic.Lib.StableHlo.Run

set_option maxRecDepth 16384

noncomputable section

open scoped BigOperators

namespace Cert.KernelIdeal.HostValue

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem

/-! ## The stretches as functions of the contents they start from -/

variable (Wv : Valuation τ sig (Elt Ideal))

/-- The three stretches before the first region leave the source words, the destination words and the scale column. -/
theorem head_v1 : StableHlo.after hostOps0_2 (StableHlo.after hostOps0_1 (StableHlo.after hostOps0 Wv)) (Proc.devRef .tc main_v1)
    = rowW (Wv (Proc.devRef .tc main_arg1)) := by
  after_results <;> rfl
theorem head_v3 : StableHlo.after hostOps0_2 (StableHlo.after hostOps0_1 (StableHlo.after hostOps0 Wv)) (Proc.devRef .tc main_v3)
    = colW (Wv (Proc.devRef .tc main_arg1)) := by
  after_results <;> rfl
theorem s0_v7 : StableHlo.after hostOps0 Wv (Proc.devRef .tc main_v7) = degW (colW (Wv (Proc.devRef .tc main_arg1))) := by
  after_results <;> rfl
theorem s0_v9 : StableHlo.after hostOps0 Wv (Proc.devRef .tc main_v9)
    = cmpf (F := Ideal) .ogt (degW (colW (Wv (Proc.devRef .tc main_arg1)))) (broadcastInDim S100000 ![] bcast_S_S100000 (constant (F := Ideal) S_ .f32 0x00000000#32)) := by
  after_results <;> rfl
theorem s0_v12 : StableHlo.after hostOps0 Wv (Proc.devRef .tc main_v12)
    = Host.rsqrt (F := Ideal) (maximumf (degW (colW (Wv (Proc.devRef .tc main_arg1)))) (broadcastInDim S100000 ![] bcast_S_S100000 (constant (F := Ideal) S_ .f32 0x3F800000#32))) := by
  after_results <;> rfl
theorem s0_cst3 : StableHlo.after hostOps0 Wv (Proc.devRef .tc main_cst_3) = constant (F := Ideal) S_ .f32 0x00000000#32 := by
  after_results <;> rfl
theorem s1_v13 : StableHlo.after hostOps0_1 Wv (Proc.devRef .tc main_v13)
    = (select (Wv (Proc.devRef .tc main_v9)) (Wv (Proc.devRef .tc main_v12))
        (broadcastInDim S100000 ![] bcast_S_S100000 (id (Wv (Proc.devRef .tc main_cst_3)))) : VecBuf) := by
  after_results <;> rfl
theorem s2_v14 : StableHlo.after hostOps0_2 Wv (Proc.devRef .tc main_v14)
    = (broadcastInDim S100000x1 ![0] bcast_S100000_S100000x1_0 (Wv (Proc.devRef .tc main_v13)) : ColBuf) := by
  after_results <;> rfl
theorem head_v14 : StableHlo.after hostOps0_2 (StableHlo.after hostOps0_1 (StableHlo.after hostOps0 Wv)) (Proc.devRef .tc main_v14)
    = disW (colW (Wv (Proc.devRef .tc main_arg1))) := by
  rw [s2_v14, s1_v13, s0_v9, s0_v12, s0_cst3]
  rfl

/-- The stretch between the regions leaves the aggregation of the first region's result. -/
theorem mid_v25 : StableHlo.after hostOps1 Wv (Proc.devRef .tc main_v25)
    = aggW (Wv (Proc.devRef .tc main_v3)) (Wv (Proc.devRef .tc main_v1)) (Wv (Proc.devRef .tc main_v15)) := by
  after_results <;> rfl

/-- The last stretch leaves the scaled aggregation of the second region's result. -/
theorem tail_v38 : StableHlo.after hostOps2 Wv (Proc.devRef .tc main_v38)
    = tailW (Wv (Proc.devRef .tc main_v14)) (Wv (Proc.devRef .tc main_v3)) (Wv (Proc.devRef .tc main_v1)) (Wv (Proc.devRef .tc main_v26)) := by
  after_results_simp <;> rfl

/-! ## Buffers a stretch does not write -/

/-- A buffer none of a stretch's operations writes keeps its contents through the stretch. -/
macro "keeps_buffer" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem keep0_arg0 : StableHlo.after hostOps0 Wv (Proc.devRef .tc main_arg0) = Wv (Proc.devRef .tc main_arg0) := by keeps_buffer
theorem keep0_arg2 : StableHlo.after hostOps0 Wv (Proc.devRef .tc main_arg2) = Wv (Proc.devRef .tc main_arg2) := by keeps_buffer
theorem keep0_arg3 : StableHlo.after hostOps0 Wv (Proc.devRef .tc main_arg3) = Wv (Proc.devRef .tc main_arg3) := by keeps_buffer
theorem keep0_arg4 : StableHlo.after hostOps0 Wv (Proc.devRef .tc main_arg4) = Wv (Proc.devRef .tc main_arg4) := by keeps_buffer
theorem keep0_arg5 : StableHlo.after hostOps0 Wv (Proc.devRef .tc main_arg5) = Wv (Proc.devRef .tc main_arg5) := by keeps_buffer
theorem keep01_arg0 : StableHlo.after hostOps0_1 Wv (Proc.devRef .tc main_arg0) = Wv (Proc.devRef .tc main_arg0) := by keeps_buffer
theorem keep01_arg2 : StableHlo.after hostOps0_1 Wv (Proc.devRef .tc main_arg2) = Wv (Proc.devRef .tc main_arg2) := by keeps_buffer
theorem keep01_arg3 : StableHlo.after hostOps0_1 Wv (Proc.devRef .tc main_arg3) = Wv (Proc.devRef .tc main_arg3) := by keeps_buffer
theorem keep01_arg4 : StableHlo.after hostOps0_1 Wv (Proc.devRef .tc main_arg4) = Wv (Proc.devRef .tc main_arg4) := by keeps_buffer
theorem keep01_arg5 : StableHlo.after hostOps0_1 Wv (Proc.devRef .tc main_arg5) = Wv (Proc.devRef .tc main_arg5) := by keeps_buffer
theorem keep02_arg0 : StableHlo.after hostOps0_2 Wv (Proc.devRef .tc main_arg0) = Wv (Proc.devRef .tc main_arg0) := by keeps_buffer
theorem keep02_arg2 : StableHlo.after hostOps0_2 Wv (Proc.devRef .tc main_arg2) = Wv (Proc.devRef .tc main_arg2) := by keeps_buffer
theorem keep02_arg3 : StableHlo.after hostOps0_2 Wv (Proc.devRef .tc main_arg3) = Wv (Proc.devRef .tc main_arg3) := by keeps_buffer
theorem keep02_arg4 : StableHlo.after hostOps0_2 Wv (Proc.devRef .tc main_arg4) = Wv (Proc.devRef .tc main_arg4) := by keeps_buffer
theorem keep02_arg5 : StableHlo.after hostOps0_2 Wv (Proc.devRef .tc main_arg5) = Wv (Proc.devRef .tc main_arg5) := by keeps_buffer
theorem keep1_arg4 : StableHlo.after hostOps1 Wv (Proc.devRef .tc main_arg4) = Wv (Proc.devRef .tc main_arg4) := by keeps_buffer
theorem keep1_arg5 : StableHlo.after hostOps1 Wv (Proc.devRef .tc main_arg5) = Wv (Proc.devRef .tc main_arg5) := by keeps_buffer
theorem keep1_v1 : StableHlo.after hostOps1 Wv (Proc.devRef .tc main_v1) = Wv (Proc.devRef .tc main_v1) := by keeps_buffer
theorem keep1_v3 : StableHlo.after hostOps1 Wv (Proc.devRef .tc main_v3) = Wv (Proc.devRef .tc main_v3) := by keeps_buffer
theorem keep1_v14 : StableHlo.after hostOps1 Wv (Proc.devRef .tc main_v14) = Wv (Proc.devRef .tc main_v14) := by keeps_buffer

/-! ## The boundaries' contents, buffer by buffer -/

section Walk
set_option quotPrecheck false
variable (m : (ℓ : Loc nD τ sig) → Buf (Elt Ideal) ℓ) (ρ : Dev nD → PrngReg) (c : Dev nD)

local notation "x0" => (m ((c : Thread nD τ).loc main_arg0) : MatBuf)
local notation "x1" => (m ((c : Thread nD τ).loc main_arg1) : EdgeBuf)
local notation "x2" => (m ((c : Thread nD τ).loc main_arg2) : (⟨S64x64, .f32⟩ : BufTy).Contents (Elt Ideal))
local notation "x3" => (m ((c : Thread nD τ).loc main_arg3) : (⟨S64, .f32⟩ : BufTy).Contents (Elt Ideal))
local notation "x4" => (m ((c : Thread nD τ).loc main_arg4) : (⟨S64x64, .f32⟩ : BufTy).Contents (Elt Ideal))
local notation "x5" => (m ((c : Thread nD τ).loc main_arg5) : (⟨S64, .f32⟩ : BufTy).Contents (Elt Ideal))

/-- At the first region's entry. -/
theorem W3_v1 : W3 m ρ c (Proc.devRef .tc main_v1) = rowW x1 := head_v1 (W0 m ρ c)
theorem W3_v3 : W3 m ρ c (Proc.devRef .tc main_v3) = colW x1 := head_v3 (W0 m ρ c)
theorem W3_v14 : W3 m ρ c (Proc.devRef .tc main_v14) = disW (colW x1) := head_v14 (W0 m ρ c)
theorem W3_arg0 : W3 m ρ c (Proc.devRef .tc main_arg0) = x0 :=
  (keep02_arg0 _).trans ((keep01_arg0 _).trans (keep0_arg0 _))
theorem W3_arg2 : W3 m ρ c (Proc.devRef .tc main_arg2) = x2 :=
  (keep02_arg2 _).trans ((keep01_arg2 _).trans (keep0_arg2 _))
theorem W3_arg3 : W3 m ρ c (Proc.devRef .tc main_arg3) = x3 :=
  (keep02_arg3 _).trans ((keep01_arg3 _).trans (keep0_arg3 _))
theorem W3_arg4 : W3 m ρ c (Proc.devRef .tc main_arg4) = x4 :=
  (keep02_arg4 _).trans ((keep01_arg4 _).trans (keep0_arg4 _))
theorem W3_arg5 : W3 m ρ c (Proc.devRef .tc main_arg5) = x5 :=
  (keep02_arg5 _).trans ((keep01_arg5 _).trans (keep0_arg5 _))

/-- At the first region's exit: its output is the region's function of its inputs; the rest is as entered. -/
theorem W4_v15 : W4 m ρ c (Proc.devRef .tc main_v15) = Cert.Gcn.regionLin x0 x2 x3 (disW (colW x1)) := by
  refine (W4_arr m ρ c 4).trans ((Cert.KernelIdeal.RegionValue.final0 (V3 m ρ) c).trans ?_)
  show Cert.Gcn.regionLin (W3 m ρ c (Proc.devRef .tc main_arg0)) (W3 m ρ c (Proc.devRef .tc main_arg2))
    (W3 m ρ c (Proc.devRef .tc main_arg3)) (W3 m ρ c (Proc.devRef .tc main_v14)) = _
  rw [W3_arg0, W3_arg2, W3_arg3, W3_v14]
theorem W4_v14 : W4 m ρ c (Proc.devRef .tc main_v14) = disW (colW x1) :=
  (W4_arr m ρ c 3).trans ((((dat0 (V3 m ρ) c).arrAt_in 3 rfl _).trans (A_eq0 (V3 m ρ) c 3)).trans (W3_v14 m ρ c))
theorem W4_v1 : W4 m ρ c (Proc.devRef .tc main_v1) = rowW x1 := (W4_of_ne m ρ c main_v1 (by decide)).trans (W3_v1 m ρ c)
theorem W4_v3 : W4 m ρ c (Proc.devRef .tc main_v3) = colW x1 := (W4_of_ne m ρ c main_v3 (by decide)).trans (W3_v3 m ρ c)
theorem W4_arg4 : W4 m ρ c (Proc.devRef .tc main_arg4) = x4 := (W4_of_ne m ρ c main_arg4 (by decide)).trans (W3_arg4 m ρ c)
theorem W4_arg5 : W4 m ρ c (Proc.devRef .tc main_arg5) = x5 := (W4_of_ne m ρ c main_arg5 (by decide)).trans (W3_arg5 m ρ c)

/-- At the second region's entry. -/
theorem W5_v25 : W5 m ρ c (Proc.devRef .tc main_v25)
    = aggW (colW x1) (rowW x1) (Cert.Gcn.regionLin x0 x2 x3 (disW (colW x1))) := by
  refine (mid_v25 (W4 m ρ c)).trans ?_
  rw [W4_v3, W4_v1, W4_v15]
theorem W5_v14 : W5 m ρ c (Proc.devRef .tc main_v14) = disW (colW x1) := (keep1_v14 _).trans (W4_v14 m ρ c)
theorem W5_v1 : W5 m ρ c (Proc.devRef .tc main_v1) = rowW x1 := (keep1_v1 _).trans (W4_v1 m ρ c)
theorem W5_v3 : W5 m ρ c (Proc.devRef .tc main_v3) = colW x1 := (keep1_v3 _).trans (W4_v3 m ρ c)
theorem W5_arg4 : W5 m ρ c (Proc.devRef .tc main_arg4) = x4 := (keep1_arg4 _).trans (W4_arg4 m ρ c)
theorem W5_arg5 : W5 m ρ c (Proc.devRef .tc main_arg5) = x5 := (keep1_arg5 _).trans (W4_arg5 m ρ c)

/-- At the second region's exit. -/
theorem W6_v26 : W6 m ρ c (Proc.devRef .tc main_v26)
    = Cert.Gcn.regionReluLin (aggW (colW x1) (rowW x1) (Cert.Gcn.regionLin x0 x2 x3 (disW (colW x1)))) x4 x5 (disW (colW x1)) := by
  refine (W6_arr m ρ c 4).trans ((Cert.KernelIdeal.RegionValue.final1 (V5 m ρ) c).trans ?_)
  show Cert.Gcn.regionReluLin (W5 m ρ c (Proc.devRef .tc main_v25)) (W5 m ρ c (Proc.devRef .tc main_arg4))
    (W5 m ρ c (Proc.devRef .tc main_arg5)) (W5 m ρ c (Proc.devRef .tc main_v14)) = _
  rw [W5_v25, W5_arg4, W5_arg5, W5_v14]
theorem W6_v14 : W6 m ρ c (Proc.devRef .tc main_v14) = disW (colW x1) :=
  (W6_arr m ρ c 3).trans ((((dat1 (V5 m ρ) c).arrAt_in 3 rfl _).trans (A_eq1 (V5 m ρ) c 3)).trans (W5_v14 m ρ c))
theorem W6_v1 : W6 m ρ c (Proc.devRef .tc main_v1) = rowW x1 := (W6_of_ne m ρ c main_v1 (by decide)).trans (W5_v1 m ρ c)
theorem W6_v3 : W6 m ρ c (Proc.devRef .tc main_v3) = colW x1 := (W6_of_ne m ρ c main_v3 (by decide)).trans (W5_v3 m ρ c)

/-- THE RESULT: what the last stretch leaves in the result buffer is the specification's kernel-side function of the
    six argument arrays. -/
theorem result_eq : W7 m ρ c (Proc.devRef .tc main_v38) = Cert.Gcn.kerOut x0 x1 x2 x3 x4 x5 := by
  refine (tail_v38 (W6 m ρ c)).trans ?_
  rw [W6_v14, W6_v3, W6_v1, W6_v26, disW_eq, aggW_eq, tailW_eq]
  rfl

/-- The run of the idealized kernel program with its result as that function. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
        = Cert.Gcn.kerOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (result_eq m ρ c), (h c).2⟩)
    (Cert.KernelIdeal.RunValue.run_result (F := Ideal) m ρ)

end Walk

end Cert.KernelIdeal.HostValue

end
-- ==== Proof.LibVecGather.lean ====
/-
  Gather of single entries of a vector, read at an index. A vector of N entries; E positions, held as an [E, 1]
  array of integer words. Result entry e is the vector's entry r with r the signed reading of word e clamped into
  [0, N - 1].
-/
import Idealize.ShloMosaic.PureOps.Ideal
import Idealize.ShloMosaic.Lib.ValueIdx

noncomputable section

namespace Cert.VecGather

open Idealize.ShloMosaic Idealize.ShloMosaic.ValueIdx

/-- The dimension numbers of a gather of single entries of a vector: one index word per result entry names an
    entry of the vector (slices of one entry), no offset axis. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the vector at entry "word e read signed, clamped into [0, N - 1]". -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  refine Fin.ext ?_
  match a with
  | ⟨0, _⟩ =>
    show (vecGather N E wf).start (ix1 e) idx 0 + (vecGather N E wf).batchCoord (ix1 e) 0
        + (vecGather N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.VecGather

end
-- ==== Proof.RefValue.lean ====
/-
  The reference program's result, index by index, is the specification's two-layer graph convolution.

  The program computes, per layer: a linear map X · W + b; the degree of every node as a scatter-add of ones by
  destination word; the scale 1/sqrt(max(deg, 1)) where deg > 0 and 0 elsewhere; a weight per edge, the product of the
  scales looked up at its source and at its destination word; the looked-up source rows times the weight; and their
  scatter-add by destination word. A lookup reads a word by adding 100000 when it is negative and clamping the signed
  result into [0, 99999]; a scatter-add at node n sums the updates whose word reads exactly n. Each operation is read
  at an index; the scatters and gathers through the general row and vector lemmas, the rest through the generated
  read-at-an-index lemmas. The second layer is the first layer's program text at other operands.
-/
import proofs.«107122_j12206297055836_2_alg».proof.Proof.RefRead
import proofs.«107122_j12206297055836_2_alg».proof.Proof.Spec
import proofs.«107122_j12206297055836_2_alg».proof.Proof.LibVecScatter
import proofs.«107122_j12206297055836_2_alg».proof.Proof.LibVecGather
import Idealize.ShloMosaic.Lib.ValueIdx
import Idealize.ShloMosaic.PureOps.Ideal.Laws

noncomputable section

open scoped BigOperators

namespace Cert.ReferenceIdeal.RefValue

open Cert.ReferenceIdeal Idealize.ShloMosaic Idealize.ShloMosaic.ValueIdx

/-! ## The printed dimension records are the general ones -/

theorem recS_eq : scatter_S100000_S1600000x1_S1600000_n_0_0_1
    = Cert.VecScatter.vecScatter 100000 1600000 Facts₀.scatter_S100000_S1600000x1_S1600000_n_0_0_1_wf := rfl
theorem recG_eq : gather_S100000_S1600000x1_S1600000_n_0_n_n_0_1_1
    = Cert.VecGather.vecGather 100000 1600000 Facts₀.gather_S100000_S1600000x1_S1600000_n_0_n_n_0_1_1_wf := rfl
theorem recS2_eq : scatter_S100000x64_S1600000x1_S1600000x64_1_0_0_1
    = Cert.ScatterGather.rowScatter 100000 1600000 64 Facts₀.scatter_S100000x64_S1600000x1_S1600000x64_1_0_0_1_wf := rfl
theorem recG2_eq : gather_S100000x64_S1600000x1_S1600000x64_1_0_n_n_0_1_164
    = Cert.ScatterGather.rowGather 100000 1600000 64 Facts₀.gather_S100000x64_S1600000x1_S1600000x64_1_0_n_n_0_1_164_wf := rfl

/-- At the exact reading a scatter-add is the exact sum. -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Two rank-1 indices with the same coordinate number are equal. -/
theorem ix1_congr {n : Nat} {a b : Fin n} (h : a.val = b.val) :
    (ix1 a : (⟨1, ![n]⟩ : Shape).Idx) = ix1 b := by rw [Fin.ext h]

/-- The scale of a degree, spelt out. -/
theorem disOf_def (d : EReal) : Cert.Gcn.disOf d
    = Scalar.select (Ideal.cmp .ogt d Cert.Gcn.Z) (Ideal.rsqrt (max d Cert.Gcn.ONE)) Cert.Gcn.Z := rfl

/-! ## The edge words -/

/-- The source word of edge e. -/
theorem v5_eq (x1 : (⟨S2x1600000, .i32⟩ : BufTy).Contents (Elt Ideal)) (e : Fin 1600000) :
    ReadP.val_main_v5 (F := Ideal) x1 (ix1 e) = Cert.Gcn.rowOf x1 e := by
  rw [ReadP.val_main_v5_apply, ReadP.val_main_v4_apply]
  show x1 _ = x1 _
  refine congrArg x1 (funext fun a => Fin.ext ?_)
  match a with
  | ⟨0, _⟩ => rfl
  | ⟨1, _⟩ => exact Nat.mod_eq_of_lt e.isLt

/-- The destination word of edge e. -/
theorem v7_eq (x1 : (⟨S2x1600000, .i32⟩ : BufTy).Contents (Elt Ideal)) (e : Fin 1600000) :
    ReadP.val_main_v7 (F := Ideal) x1 (ix1 e) = Cert.Gcn.colOf x1 e := by
  rw [ReadP.val_main_v7_apply, ReadP.val_main_v6_apply]
  show x1 _ = x1 _
  refine congrArg x1 (funext fun a => Fin.ext ?_)
  match a with
  | ⟨0, _⟩ => rfl
  | ⟨1, _⟩ => exact Nat.mod_eq_of_lt e.isLt

/-! ## The degree and the scale -/

/-- The destination word as the index column of the degree's scatter. -/
theorem v10_eq (x1 : (⟨S2x1600000, .i32⟩ : BufTy).Contents (Elt Ideal)) (e : Fin 1600000) :
    ReadP.val_main_v10 (F := Ideal) x1 (ix2 e 0) = Cert.Gcn.colOf x1 e := by
  rw [ReadP.val_main_v10_apply]
  refine (congrArg (ReadP.val_main_v7 (F := Ideal) x1) (funext fun a => ?_)).trans (v7_eq x1 e)
  match a with
  | ⟨0, _⟩ => rfl

/-- The degree's scatter starts from zeros … -/
theorem v9_eq (n : Fin 100000) : ReadP.val_main_v9 (F := Ideal) (ix1 n) = Cert.Gcn.Z := rfl

/-- … and adds ones. -/
theorem v8_eq (e : Fin 1600000) : ReadP.val_main_v8 (F := Ideal) (ix1 e) = Cert.Gcn.ONE := rfl

/-- The degree: the sum of one 1 per edge whose destination word reads n. -/
theorem v11_eq (x1 : (⟨S2x1600000, .i32⟩ : BufTy).Contents (Elt Ideal)) (n : Fin 100000) :
    ReadP.val_main_v11 (F := Ideal) x1 (ix1 n) = Cert.Gcn.degOf x1 n := by
  have h := Cert.VecScatter.scatterAdd_vec_apply (N := 100000) (E := 1600000)
    Facts₀.scatter_S100000_S1600000x1_S1600000_n_0_0_1_wf (ReadP.val_main_v10 (F := Ideal) x1)
    (ReadP.val_main_v9 (F := Ideal)) (ReadP.val_main_v8 (F := Ideal)) n
  simp only [v10_eq, v9_eq, v8_eq] at h
  have hr : Cert.Gcn.degOf x1 n = Cert.Gcn.Z + ∑ e ∈ Finset.univ.filter
      (fun e : Fin 1600000 => (Cert.Gcn.colOf x1 e).toInt = (n.val : ℤ)), Cert.Gcn.ONE := rfl
  rw [hr, ← h]
  show Host.scatterAdd (F := Ideal) scatter_S100000_S1600000x1_S1600000_n_0_0_1 (ReadP.val_main_v9 (F := Ideal))
    (ReadP.val_main_v10 (F := Ideal) x1) (ReadP.val_main_v8 (F := Ideal)) (ix1 n) = _
  rw [scatterAdd_ideal, recS_eq]

theorem v12_eq (n : Fin 100000) : ReadP.val_main_v12 (F := Ideal) (ix1 n) = Cert.Gcn.Z := rfl
theorem v14_eq (n : Fin 100000) : ReadP.val_main_v14 (F := Ideal) (ix1 n) = Cert.Gcn.ONE := rfl
theorem call0_v1_eq (n : Fin 100000) : ReadP.val_main_call0_v1 (F := Ideal) (ix1 n) = Cert.Gcn.Z := rfl

/-- The scale of node n. -/
theorem v17_eq (x1 : (⟨S2x1600000, .i32⟩ : BufTy).Contents (Elt Ideal)) (n : Fin 100000) :
    ReadP.val_main_v17 (F := Ideal) x1 (ix1 n) = Cert.Gcn.sOf x1 n := by
  rw [ReadP.val_main_v17_apply, ReadP.val_main_v13_apply, ReadP.val_main_v16_apply, ReadP.val_main_v15_apply,
    v11_eq, v12_eq, v14_eq, call0_v1_eq]
  show _ = Cert.Gcn.disOf (Cert.Gcn.degOf x1 n)
  generalize Cert.Gcn.degOf x1 n = d
  rfl

/-! ## The per-edge weight -/

theorem v18_eq (e : Fin 1600000) : ReadP.val_main_v18 (F := Ideal) (ix1 e) = 0#32 := rfl
theorem v20_eq (e : Fin 1600000) : ReadP.val_main_v20 (F := Ideal) (ix1 e) = 100000#32 := rfl

/-- A lookup's index column: the source word, shifted by 100000 when negative. -/
theorem v23_eq (x1 : (⟨S2x1600000, .i32⟩ : BufTy).Contents (Elt Ideal)) (e : Fin 1600000) :
    ReadP.val_main_v23 (F := Ideal) x1 (ix2 e 0)
      = Scalar.select (IntOp.cmpi .slt (Cert.Gcn.rowOf x1 e) 0#32) (IntOp.addi (Cert.Gcn.rowOf x1 e) 100000#32)
          (Cert.Gcn.rowOf x1 e) := by
  rw [ReadP.val_main_v23_apply]
  refine (congrArg (ReadP.val_main_v22 (F := Ideal) x1)
    (funext fun a => ?_ : ReadP.idx_main_v23 (ix2 e 0) = ix1 e)).trans ?_
  · match a with
    | ⟨0, _⟩ => rfl
  rw [ReadP.val_main_v22_apply, ReadP.val_main_v19_apply, ReadP.val_main_v21_apply, v5_eq, v18_eq, v20_eq]

theorem v25_eq (e : Fin 1600000) : ReadP.val_main_v25 (F := Ideal) (ix1 e) = 0#32 := rfl
theorem v27_eq (e : Fin 1600000) : ReadP.val_main_v27 (F := Ideal) (ix1 e) = 100000#32 := rfl

/-- A lookup's index column: the destination word, shifted by 100000 when negative. -/
theorem v30_eq (x1 : (⟨S2x1600000, .i32⟩ : BufTy).Contents (Elt Ideal)) (e : Fin 1600000) :
    ReadP.val_main_v30 (F := Ideal) x1 (ix2 e 0)
      = Scalar.select (IntOp.cmpi .slt (Cert.Gcn.colOf x1 e) 0#32) (IntOp.addi (Cert.Gcn.colOf x1 e) 100000#32)
          (Cert.Gcn.colOf x1 e) := by
  rw [ReadP.val_main_v30_apply]
  refine (congrArg (ReadP.val_main_v29 (F := Ideal) x1)
    (funext fun a => ?_ : ReadP.idx_main_v30 (ix2 e 0) = ix1 e)).trans ?_
  · match a with
    | ⟨0, _⟩ => rfl
  rw [ReadP.val_main_v29_apply, ReadP.val_main_v26_apply, ReadP.val_main_v28_apply, v7_eq, v25_eq, v27_eq]

/-- A lookup of the scale by the source word. -/
theorem v24_eq (x1 : (⟨S2x1600000, .i32⟩ : BufTy).Contents (Elt Ideal)) (e : Fin 1600000) :
    ReadP.val_main_v24 (F := Ideal) x1 (ix1 e) = Cert.Gcn.sOf x1 (Cert.Gcn.look (Cert.Gcn.rowOf x1 e)) := by
  show Host.gather gather_S100000_S1600000x1_S1600000_n_0_n_n_0_1_1 (ReadP.val_main_v17 (F := Ideal) x1)
    (ReadP.val_main_v23 (F := Ideal) x1) (ix1 e) = _
  rw [recG_eq, Cert.VecGather.gather_vec_apply (by decide), ← v17_eq x1 (Cert.Gcn.look (Cert.Gcn.rowOf x1 e))]
  refine congrArg (ReadP.val_main_v17 (F := Ideal) x1) (ix1_congr ?_)
  show min (ReadP.val_main_v23 (F := Ideal) x1 (ix2 e 0)).toInt.toNat (100000 - 1) = _
  rw [v23_eq]
  rfl

/-- A lookup of the scale by the destination word. -/
theorem v31_eq (x1 : (⟨S2x1600000, .i32⟩ : BufTy).Contents (Elt Ideal)) (e : Fin 1600000) :
    ReadP.val_main_v31 (F := Ideal) x1 (ix1 e) = Cert.Gcn.sOf x1 (Cert.Gcn.look (Cert.Gcn.colOf x1 e)) := by
  show Host.gather gather_S100000_S1600000x1_S1600000_n_0_n_n_0_1_1 (ReadP.val_main_v17 (F := Ideal) x1)
    (ReadP.val_main_v30 (F := Ideal) x1) (ix1 e) = _
  rw [recG_eq, Cert.VecGather.gather_vec_apply (by decide), ← v17_eq x1 (Cert.Gcn.look (Cert.Gcn.colOf x1 e))]
  refine congrArg (ReadP.val_main_v17 (F := Ideal) x1) (ix1_congr ?_)
  show min (ReadP.val_main_v30 (F := Ideal) x1 (ix2 e 0)).toInt.toNat (100000 - 1) = _
  rw [v30_eq]
  rfl

/-- The weight of edge e: the scale at its source times the scale at its destination. -/
theorem v32_eq (x1 : (⟨S2x1600000, .i32⟩ : BufTy).Contents (Elt Ideal)) (e : Fin 1600000) :
    ReadP.val_main_v32 (F := Ideal) x1 (ix1 e)
      = Cert.Gcn.sOf x1 (Cert.Gcn.look (Cert.Gcn.rowOf x1 e)) * Cert.Gcn.sOf x1 (Cert.Gcn.look (Cert.Gcn.colOf x1 e)) := by
  rw [ReadP.val_main_v32_apply, v24_eq, v31_eq, Ideal.mulf_def]

/-! ## One layer, for an arbitrary table of rows -/

/-- The weight as a column, broadcast along the rows. -/
theorem v41_eq (x1 : (⟨S2x1600000, .i32⟩ : BufTy).Contents (Elt Ideal)) (e : Fin 1600000) (k : Fin 64) :
    ReadP.val_main_v41 (F := Ideal) x1 (ix2 e k)
      = Cert.Gcn.sOf x1 (Cert.Gcn.look (Cert.Gcn.rowOf x1 e)) * Cert.Gcn.sOf x1 (Cert.Gcn.look (Cert.Gcn.colOf x1 e)) := by
  rw [ReadP.val_main_v41_apply, ReadP.val_main_v33_apply]
  refine (congrArg (ReadP.val_main_v32 (F := Ideal) x1) (funext fun a => ?_)).trans (v32_eq x1 e)
  match a with
  | ⟨0, _⟩ => rfl

theorem v34_eq (e : Fin 1600000) : ReadP.val_main_v34 (F := Ideal) (ix1 e) = 0#32 := rfl
theorem v36_eq (e : Fin 1600000) : ReadP.val_main_v36 (F := Ideal) (ix1 e) = 100000#32 := rfl

/-- A lookup's index column: the source word, shifted by 100000 when negative. -/
theorem v39_eq (x1 : (⟨S2x1600000, .i32⟩ : BufTy).Contents (Elt Ideal)) (e : Fin 1600000) :
    ReadP.val_main_v39 (F := Ideal) x1 (ix2 e 0)
      = Scalar.select (IntOp.cmpi .slt (Cert.Gcn.rowOf x1 e) 0#32) (IntOp.addi (Cert.Gcn.rowOf x1 e) 100000#32)
          (Cert.Gcn.rowOf x1 e) := by
  rw [ReadP.val_main_v39_apply]
  refine (congrArg (ReadP.val_main_v38 (F := Ideal) x1)
    (funext fun a => ?_ : ReadP.idx_main_v39 (ix2 e 0) = ix1 e)).trans ?_
  · match a with
    | ⟨0, _⟩ => rfl
  rw [ReadP.val_main_v38_apply, ReadP.val_main_v35_apply, ReadP.val_main_v37_apply, v5_eq, v34_eq, v36_eq]

/-- The looked-up source row of edge e. -/
theorem gatherRow_eq (x1 : (⟨S2x1600000, .i32⟩ : BufTy).Contents (Elt Ideal)) (H : FVec Ideal S100000x64 .f32) (e : Fin 1600000) (k : Fin 64) :
    Host.gather (α := Ideal .f32) gather_S100000x64_S1600000x1_S1600000x64_1_0_n_n_0_1_164 H (ReadP.val_main_v39 (F := Ideal) x1) (ix2 e k)
      = H (ix2 (Cert.Gcn.look (Cert.Gcn.rowOf x1 e)) k) := by
  rw [recG2_eq]
  refine Cert.ScatterGather.gather_rows_apply_of_eq (by decide) _ H _ e k _ ?_
  rw [v39_eq]
  rfl

/-- The layer's scatter starts from zeros. -/
theorem v43_eq (i : S100000x64.Idx) : ReadP.val_main_v43 (F := Ideal) i = Cert.Gcn.Z := rfl

/-- The destination word as the index column of the layer's scatter. -/
theorem v44_eq (x1 : (⟨S2x1600000, .i32⟩ : BufTy).Contents (Elt Ideal)) (e : Fin 1600000) :
    ReadP.val_main_v44 (F := Ideal) x1 (ix2 e 0) = Cert.Gcn.colOf x1 e := by
  rw [ReadP.val_main_v44_apply]
  refine (congrArg (ReadP.val_main_v7 (F := Ideal) x1) (funext fun a => ?_)).trans (v7_eq x1 e)
  match a with
  | ⟨0, _⟩ => rfl

/-- ONE LAYER: scatter-adding, by destination word, the weighted looked-up rows of a table H is the normalised
    segment sum of H. -/
theorem layer_eq (x1 : (⟨S2x1600000, .i32⟩ : BufTy).Contents (Elt Ideal)) (H : FVec Ideal S100000x64 .f32) (n : Fin 100000) (k : Fin 64) :
    Host.scatterAdd (F := Ideal) (φ := .f32) scatter_S100000x64_S1600000x1_S1600000x64_1_0_0_1 (ReadP.val_main_v43 (F := Ideal))
      (ReadP.val_main_v44 (F := Ideal) x1)
      (mulf (F := Ideal) (φ := .f32) (ReadP.val_main_v41 (F := Ideal) x1)
        (Host.gather (α := Ideal .f32) gather_S100000x64_S1600000x1_S1600000x64_1_0_n_n_0_1_164 H (ReadP.val_main_v39 (F := Ideal) x1)))
      (ix2 n k)
      = Cert.Gcn.convAt x1 H n k := by
  have hr : Cert.Gcn.convAt x1 H n k = Cert.Gcn.Z + ∑ e ∈ Finset.univ.filter
      (fun e : Fin 1600000 => (Cert.Gcn.colOf x1 e).toInt = (n.val : ℤ)),
        (Cert.Gcn.sOf x1 (Cert.Gcn.look (Cert.Gcn.rowOf x1 e)) * Cert.Gcn.sOf x1 (Cert.Gcn.look (Cert.Gcn.colOf x1 e)))
          * H (ix2 (Cert.Gcn.look (Cert.Gcn.rowOf x1 e)) k) := rfl
  rw [hr, scatterAdd_ideal, recS2_eq, Cert.ScatterGather.scatterAdd_rows_apply, v43_eq]
  simp only [v44_eq]
  refine congrArg (HAdd.hAdd Cert.Gcn.Z) (Finset.sum_congr rfl fun e _ => ?_)
  rw [mulf_apply, v41_eq, gatherRow_eq]

/-! ## The linear map -/

/-- X · W + b, entry by entry. -/
theorem v3_eq (X : FVec Ideal S100000x64 .f32) (W : FVec Ideal S64x64 .f32) (b : FVec Ideal S64 .f32) :
    ReadP.val_main_v3 (F := Ideal) X W b = Cert.Gcn.lin X W b := by
  funext i
  obtain ⟨p, q, rfl⟩ : ∃ (p : Fin 100000) (q : Fin 64), i = ix2 p q := ⟨i 0, i 1, eq_ix2 i⟩
  have hr : Cert.Gcn.lin X W b (ix2 p q) = (∑ j : Fin 64, X (ix2 p j) * W (ix2 j q)) + b (ix1 q) := rfl
  have hl : ∀ j : Fin 64, ReadP.lidx_main_v0 (ix2 p q) j = ix2 p j := fun j => funext fun a => by
    match a with
    | ⟨0, _⟩ => rfl
    | ⟨1, _⟩ => rfl
  have hrr : ∀ j : Fin 64, ReadP.ridx_main_v0 (ix2 p q) j = ix2 j q := fun j => funext fun a => by
    match a with
    | ⟨0, _⟩ => rfl
    | ⟨1, _⟩ => rfl
  have hb : ReadP.idx_main_v1 (ReadP.idx_main_v2 (ix2 p q)) = ix1 q := funext fun a => by
    match a with
    | ⟨0, _⟩ => rfl
  rw [hr, ReadP.val_main_v3_apply, ReadP.val_main_v0_apply, ReadP.val_main_v2_apply, ReadP.val_main_v1_apply,
    Ideal.addf_def, hb]
  simp only [hl, hrr]

/-! ## The two layers -/

theorem conv_apply (x1 : Cert.Gcn.EdgeIx) (H : Cert.Gcn.Mat) (n : Fin 100000) (k : Fin 64) :
    Cert.Gcn.conv x1 H (ix2 n k) = Cert.Gcn.convAt x1 H n k := rfl

/-- The first layer's scatter, spelt with its operands. -/
theorem v45_unfold (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) :
    ReadP.val_main_v45 (F := Ideal) x0 x1 x2 x3
      = Host.scatterAdd (F := Ideal) (φ := .f32) scatter_S100000x64_S1600000x1_S1600000x64_1_0_0_1
          (ReadP.val_main_v43 (F := Ideal)) (ReadP.val_main_v44 (F := Ideal) x1)
          (mulf (F := Ideal) (φ := .f32) (ReadP.val_main_v41 (F := Ideal) x1)
            (Host.gather (α := Ideal .f32) gather_S100000x64_S1600000x1_S1600000x64_1_0_n_n_0_1_164
              (ReadP.val_main_v3 (F := Ideal) x0 x2 x3) (ReadP.val_main_v39 (F := Ideal) x1))) := rfl

/-- The first layer. -/
theorem v45_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) :
    ReadP.val_main_v45 (F := Ideal) x0 x1 x2 x3 = Cert.Gcn.conv x1 (Cert.Gcn.lin x0 x2 x3) := by
  funext i
  obtain ⟨n, k, rfl⟩ : ∃ (n : Fin 100000) (k : Fin 64), i = ix2 n k := ⟨i 0, i 1, eq_ix2 i⟩
  rw [conv_apply, v45_unfold, layer_eq, v3_eq]

theorem call1_v0_eq (i : S100000x64.Idx) : ReadP.val_main_call1_v0 (F := Ideal) i = Cert.Gcn.Z := rfl

theorem relu_apply (H : Cert.Gcn.Mat) (i : S100000x64.Idx) : Cert.Gcn.relu H i = max (H i) Cert.Gcn.Z := rfl

/-- The clamp below at 0. -/
theorem v46_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) :
    ReadP.val_main_v46 (F := Ideal) x0 x1 x2 x3 = Cert.Gcn.relu (Cert.Gcn.conv x1 (Cert.Gcn.lin x0 x2 x3)) := by
  funext i
  rw [relu_apply, ReadP.val_main_v46_apply, call1_v0_eq, Ideal.maximumf_def, v45_eq]

/-- The second linear map is the first one's program text at other operands. -/
theorem v50_unfold (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    ReadP.val_main_v50 (F := Ideal) x0 x1 x2 x3 x4 x5
      = ReadP.val_main_v3 (F := Ideal) (ReadP.val_main_v46 (F := Ideal) x0 x1 x2 x3) x4 x5 := rfl

theorem v50_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    ReadP.val_main_v50 (F := Ideal) x0 x1 x2 x3 x4 x5
      = Cert.Gcn.lin (Cert.Gcn.relu (Cert.Gcn.conv x1 (Cert.Gcn.lin x0 x2 x3))) x4 x5 := by
  rw [v50_unfold, v3_eq, v46_eq]

/-- The second layer's operands are the first layer's program text again. -/
theorem v90_eq : ReadP.val_main_v90 (F := Ideal) = ReadP.val_main_v43 (F := Ideal) := rfl
theorem v91_eq (x1 : (⟨S2x1600000, .i32⟩ : BufTy).Contents (Elt Ideal)) : ReadP.val_main_v91 (F := Ideal) x1 = ReadP.val_main_v44 (F := Ideal) x1 := rfl
theorem v86_eq (x1 : (⟨S2x1600000, .i32⟩ : BufTy).Contents (Elt Ideal)) : ReadP.val_main_v86 (F := Ideal) x1 = ReadP.val_main_v39 (F := Ideal) x1 := rfl
theorem v64_eq (x1 : (⟨S2x1600000, .i32⟩ : BufTy).Contents (Elt Ideal)) : ReadP.val_main_v64 (F := Ideal) x1 = ReadP.val_main_v17 (F := Ideal) x1 := rfl
theorem v79_eq (x1 : (⟨S2x1600000, .i32⟩ : BufTy).Contents (Elt Ideal)) : ReadP.val_main_v79 (F := Ideal) x1 = ReadP.val_main_v32 (F := Ideal) x1 := rfl
theorem v88_eq (x1 : (⟨S2x1600000, .i32⟩ : BufTy).Contents (Elt Ideal)) : ReadP.val_main_v88 (F := Ideal) x1 = ReadP.val_main_v41 (F := Ideal) x1 := rfl

/-- The second layer's scatter, spelt with its operands. -/
theorem v92_unfold (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    ReadP.val_main_v92 (F := Ideal) x0 x1 x2 x3 x4 x5
      = Host.scatterAdd (F := Ideal) (φ := .f32) scatter_S100000x64_S1600000x1_S1600000x64_1_0_0_1
          (ReadP.val_main_v90 (F := Ideal)) (ReadP.val_main_v91 (F := Ideal) x1)
          (mulf (F := Ideal) (φ := .f32) (ReadP.val_main_v88 (F := Ideal) x1)
            (Host.gather (α := Ideal .f32) gather_S100000x64_S1600000x1_S1600000x64_1_0_n_n_0_1_164
              (ReadP.val_main_v50 (F := Ideal) x0 x1 x2 x3 x4 x5) (ReadP.val_main_v86 (F := Ideal) x1))) := rfl

/-- THE REFERENCE'S RESULT is the specification's two-layer graph convolution. -/
theorem ref_value (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    ReadP.val_main_v92 (F := Ideal) x0 x1 x2 x3 x4 x5 = Cert.Gcn.refOut x0 x1 x2 x3 x4 x5 := by
  funext i
  obtain ⟨n, k, rfl⟩ : ∃ (n : Fin 100000) (k : Fin 64), i = ix2 n k := ⟨i 0, i 1, eq_ix2 i⟩
  have hr : Cert.Gcn.refOut x0 x1 x2 x3 x4 x5
      = Cert.Gcn.conv x1 (Cert.Gcn.lin (Cert.Gcn.relu (Cert.Gcn.conv x1 (Cert.Gcn.lin x0 x2 x3))) x4 x5) := rfl
  rw [hr, conv_apply, v92_unfold, v90_eq, v91_eq, v88_eq, v86_eq, layer_eq, v50_eq]

end Cert.ReferenceIdeal.RefValue

end
-- ==== Proof.lean ====
/-
  A two-layer graph convolution: a kernel program (two fused linear kernels with the symmetric normalisation factored
  into per-node scales, the gathers and segment sums on the host) against its reference (per-edge normalisation).

  Over the extended reals both programs compute one function of the six arguments: in the reference, every edge summed
  at node n carries the factor s(n) (the scale of its destination), a nonnegative real, and multiplication by a
  nonnegative real distributes over a sum of arbitrary extended reals; so the reference's normalised segment sum is
  s(n) times the segment sum of the source-scaled rows, which is what the kernel program computes. Neither side's
  finiteness is needed: the precondition is never opened.

  The frames of the two kernel programs are their generated certificates; the reference's frame is its run with the
  result dropped; the idealization rewrote nothing.
-/
import proofs.«107122_j12206297055836_2_alg».proof.Defs
import proofs.«107122_j12206297055836_2_alg».proof.Proof.Gen.Kernel
import proofs.«107122_j12206297055836_2_alg».proof.Proof.Gen.Kernel.Skeleton
import proofs.«107122_j12206297055836_2_alg».proof.Proof.Gen.Kernel.Launch
import proofs.«107122_j12206297055836_2_alg».proof.Proof.Gen.Kernel.Points
import proofs.«107122_j12206297055836_2_alg».proof.Proof.Gen.Kernel.Frame
import proofs.«107122_j12206297055836_2_alg».proof.Proof.Gen.KernelIdeal
import proofs.«107122_j12206297055836_2_alg».proof.Proof.Gen.KernelIdeal.Skeleton
import proofs.«107122_j12206297055836_2_alg».proof.Proof.Gen.KernelIdeal.Launch
import proofs.«107122_j12206297055836_2_alg».proof.Proof.Gen.KernelIdeal.Points
import proofs.«107122_j12206297055836_2_alg».proof.Proof.Gen.KernelIdeal.Frame
import proofs.«107122_j12206297055836_2_alg».proof.Proof.Gen.ReferenceIdeal
import proofs.«107122_j12206297055836_2_alg».proof.Proof.Gen.Pre_finite_inputs
import proofs.«107122_j12206297055836_2_alg».proof.Proof.RefRead
import proofs.«107122_j12206297055836_2_alg».proof.Proof.Spec
import proofs.«107122_j12206297055836_2_alg».proof.Proof.KernelHost
import proofs.«107122_j12206297055836_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end at one function of the (agreeing) arguments: the kernel program's at the per-node form, the
    reference's at the per-edge form, equal by the distributive law over a nonnegative real factor. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v92_eq, Cert.ReferenceIdeal.RefValue.ref_value, Cert.Gcn.refOut_eq_kerOut,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
